-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x1200000 : Shape := ⟨2, ![2, 1200000]⟩
abbrev S1200000 : Shape := ⟨1, ![1200000]⟩
abbrev S256x64 : Shape := ⟨2, ![256, 64]⟩
abbrev S64 : Shape := ⟨1, ![64]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S1200000 : S_.BroadcastsInDim S1200000 (![] : Fin 0 → Fin S1200000.rank)
  reducesTo_S1200000_S_d0 : S1200000.ReducesTo [0] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x256 .f32) (main_arg1 : IVec S2x1200000 32) (main_arg2 : FVec F S1200000 .f32) (main_arg3 : FVec F S256x64 .f32) (main_arg4 : FVec F S64 .f32) (main_arg5 : FVec F S64 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S1200000 .f32 := Host.absf main_arg2
  let main_cst_0 : FVec F S_ .f32 := constant S_ .f32 0x7F800000#32
  let main_v5 : FVec F S1200000 .f32 := broadcastInDim S1200000 ![] bcast_S_S1200000 main_cst_0
  let main_v6 : IVec S1200000 1 := cmpf .olt main_v4 main_v5
  let main_c_1 : IVec S_ 1 := constantI S_ 1 1#1
  let main_v7 : IVec S_ 1 := (fun x v => Host.reduce IntOp.andi x v reducesTo_S1200000_S_d0 h_S_) main_v6 main_c_1
  let main_v8 : IVec S_ 1 := andi main_v3 main_v7
  let main_v9 : FVec F S256x64 .f32 := Host.absf main_arg3
  let main_cst_2 : FVec F S_ .f32 := constant S_ .f32 0x7F800000#32
  let main_v10 : FVec F S256x64 .f32 := broadcastInDim S256x64 ![] bcast_S_S256x64 main_cst_2
  let main_v11 : IVec S256x64 1 := cmpf .olt main_v9 main_v10
  let main_c_3 : IVec S_ 1 := constantI S_ 1 1#1
  let main_v12 : IVec S_ 1 := (fun x v => Host.reduce IntOp.andi x v reducesTo_S256x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_v13 main_v16
-- ==== Kernel.lean ====
abbrev S100000x256 : Shape := ⟨2, ![100000, 256]⟩
abbrev S2x1200000 : Shape := ⟨2, ![2, 1200000]⟩
abbrev S1200000 : Shape := ⟨1, ![1200000]⟩
abbrev S256x64 : Shape := ⟨2, ![256, 64]⟩
abbrev S64 : Shape := ⟨1, ![64]⟩
abbrev S100000x64 : Shape := ⟨2, ![100000, 64]⟩
abbrev S5000x256 : Shape := ⟨2, ![5000, 256]⟩
abbrev S5000x64 : Shape := ⟨2, ![5000, 64]⟩
abbrev S1x1200000 : Shape := ⟨2, ![1, 1200000]⟩
abbrev S_ : Shape := ⟨0, ![]⟩
abbrev S1200000x1 : Shape := ⟨2, ![1200000, 1]⟩
abbrev S1200000x64 : Shape := ⟨2, ![1200000, 64]⟩
abbrev S1x64 : Shape := ⟨2, ![1, 64]⟩
abbrev S50000x128 : Shape := ⟨2, ![50000, 128]⟩
abbrev S5000x128 : Shape := ⟨2, ![5000, 128]⟩

abbrev nBuf : Space → Nat
  | .hbm => 30
  | .vmem => 13
  | .smem => 0
  | _ => 0

abbrev bufTy : (tb : Table) → Fin (tcTables nBuf tb) → BufTy
  | .hbm, ⟨0, _⟩ => ⟨S100000x256, .f32⟩
  | .hbm, ⟨1, _⟩ => ⟨S2x1200000, .i32⟩
  | .hbm, ⟨2, _⟩ => ⟨S1200000, .f32⟩
  | .hbm, ⟨3, _⟩ => ⟨S256x64, .f32⟩
  | .hbm, ⟨4, _⟩ => ⟨S64, .f32⟩
  | .hbm, ⟨5, _⟩ => ⟨S64, .f32⟩
  | .hbm, ⟨6, _⟩ => ⟨S100000x64, .f32⟩
  | .hbm, ⟨7, _⟩ => ⟨S1x1200000, .i32⟩
  | .hbm, ⟨8, _⟩ => ⟨S1200000, .i32⟩
  | .hbm, ⟨9, _⟩ => ⟨S1x1200000, .i32⟩
  | .hbm, ⟨10, _⟩ => ⟨S1200000, .i32⟩
  | .hbm, ⟨11, _⟩ => ⟨S_, .i32⟩
  | .hbm, ⟨12, _⟩ => ⟨S1200000, .i32⟩
  | .hbm, ⟨13, _⟩ => ⟨S1200000, .i1⟩
  | .hbm, ⟨14, _⟩ => ⟨S_, .i32⟩
  | .hbm, ⟨15, _⟩ => ⟨S1200000, .i32⟩
  | .hbm, ⟨16, _⟩ => ⟨S1200000, .i32⟩
  | .hbm, ⟨17, _⟩ => ⟨S1200000, .i32⟩
  | .hbm, ⟨18, _⟩ => ⟨S1200000x1, .i32⟩
  | .hbm, ⟨19, _⟩ => ⟨S1200000x64, .f32⟩
  | .hbm, ⟨20, _⟩ => ⟨S1200000x1, .f32⟩
  | .hbm, ⟨21, _⟩ => ⟨S1200000x64, .f32⟩
  | .hbm, ⟨22, _⟩ => ⟨S1200000x64, .f32⟩
  | .hbm, ⟨23, _⟩ => ⟨S_, .f32⟩
  | .hbm, ⟨24, _⟩ => ⟨S100000x64, .f32⟩
  | .hbm, ⟨25, _⟩ => ⟨S1200000x1, .i32⟩
  | .hbm, ⟨26, _⟩ => ⟨S100000x64, .f32⟩
  | .hbm, ⟨27, _⟩ => ⟨S1x64, .f32⟩
  | .hbm, ⟨28, _⟩ => ⟨S1x64, .f32⟩
  | .hbm, ⟨29, _⟩ => ⟨S50000x128, .f32⟩
  | .local _ .vmem, ⟨0, _⟩ => ⟨S5000x256, .f32⟩
  | .local _ .vmem, ⟨1, _⟩ => ⟨S5000x256, .f32⟩
  | .local _ .vmem, ⟨2, _⟩ => ⟨S256x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S1x64, .f32⟩
  | .local _ .vmem, ⟨10, _⟩ => ⟨S1x64, .f32⟩
  | .local _ .vmem, ⟨11, _⟩ => ⟨S5000x128, .f32⟩
  | .local _ .vmem, ⟨12, _⟩ => ⟨S5000x128, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c : Ref sig .tc := ⟨.hbm, 11, rfl⟩
abbrev main_v5 : Ref sig .tc := ⟨.hbm, 12, rfl⟩
abbrev main_v6 : Ref sig .tc := ⟨.hbm, 13, rfl⟩
abbrev main_c_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg4_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem4_0 : DmaSem sig := 11
abbrev cc1_sem4_1 : DmaSem sig := 12

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c10_i32 : BitVec 32 := 10#32
  let v0 : BitVec 32 := Scalar.addi arg0 c10_i32
  let c0_i32 : BitVec 32 := 0#32
  let c0_i32_0 : BitVec 32 := 0#32
  ![v0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x64_S256x64_0_0 : ∀ a, (![0, 0] : Fin 2 → Nat) a + S256x64.size a ≤ S256x64.size a
  h_S256x64 : 0 < S256x64.numel
  inb_S5000x64_S5000x64_0_0 : ∀ a, (![0, 0] : Fin 2 → Nat) a + S5000x64.size a ≤ S5000x64.size a
  h_S5000x64 : 0 < S5000x64.numel
  slices_S2x1200000_S1x1200000_0_0 : S2x1200000.Slices ![0, 0] S1x1200000
  shapeCasts_S1x1200000_S1200000 : S1x1200000.ShapeCasts S1200000
  slices_S2x1200000_S1x1200000_1_0 : S2x1200000.Slices ![1, 0] S1x1200000
  bcast_S_S1200000 : S_.BroadcastsInDim S1200000 (![] : Fin 0 → Fin S1200000.rank)
  bcast_S1200000_S1200000x1_0 : S1200000.BroadcastsInDim S1200000x1 (![0] : Fin 1 → Fin S1200000x1.rank)
  bcast_S1200000x1_S1200000x64_0_1 : S1200000x1.BroadcastsInDim S1200000x64 (![0, 1] : Fin 2 → Fin S1200000x64.rank)
  bcast_S_S100000x64 : S_.BroadcastsInDim S100000x64 (![] : Fin 0 → Fin S100000x64.rank)
  shapeCasts_S64_S1x64 : S64.ShapeCasts S1x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  shapeCasts_S5000x64_S5000x64 : S5000x64.ShapeCasts S5000x64
  broadcasts_S1x64_S5000x64 : S1x64.Broadcasts S5000x64
  concatenates_S5000x64_S5000x64_S5000x128_d1 : Shape.Concatenates [S5000x64, S5000x64] S5000x128 1
  inb_S5000x128_S5000x128_0_0 : ∀ a, (![0, 0] : Fin 2 → Nat) a + S5000x128.size a ≤ S5000x128.size a
  h_S5000x128 : 0 < S5000x128.numel
  dot_S5000x256_S256x64_S5000x64_1_0_0_1_n_n_wf : DotDims.WF S5000x256 S256x64 S5000x64 [1] [0] [0] [1] [] []
  gather_S100000x64_S1200000x1_S1200000x64_1_0_n_n_0_1_164_wf : GatherDims.WF S100000x64 S1200000x1 S1200000x64 [1] [0] [] [0] [] 1 ![1, 64]
  scatter_S100000x64_S1200000x1_S1200000x64_1_0_0_1_wf : ScatterDims.WF S100000x64 S1200000x1 S1200000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x64.size a ≤ S256x64.size a
  hwx0_1 : ∀ i : grid0.Coords, EltTy.bits .f32 = 32 ∨ (Rect.block (s := S256x64) S256x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S50000x128.size a
  hwx1_4 : ∀ i : grid1.Coords, EltTy.bits .f32 = 32 ∨ (Rect.block (s := S50000x128) S5000x128.size (cc1_transform_4 i) (hinb1_4 i)).WholeWords (EltTy.packing .f32)

variable [Facts₀]

def dot_S5000x256_S256x64_S5000x64_1_0_0_1_n_n : DotDims S5000x256 S256x64 S5000x64 where
  lhsContracting := [1]
  rhsContracting := [0]
  lhsNonContracting := [0]
  rhsNonContracting := [1]
  lhsBatch := []
  rhsBatch := []
  wf := dot_S5000x256_S256x64_S5000x64_1_0_0_1_n_n_wf
def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S256x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v17) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v18) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v19) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v20) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S100000x256 : Shape := ⟨2, ![100000, 256]⟩
abbrev S2x1200000 : Shape := ⟨2, ![2, 1200000]⟩
abbrev S1200000 : Shape := ⟨1, ![1200000]⟩
abbrev S256x64 : Shape := ⟨2, ![256, 64]⟩
abbrev S64 : Shape := ⟨1, ![64]⟩
abbrev S1x1200000 : Shape := ⟨2, ![1, 1200000]⟩
abbrev S100000x64 : Shape := ⟨2, ![100000, 64]⟩
abbrev S_ : Shape := ⟨0, ![]⟩
abbrev S1200000x1 : Shape := ⟨2, ![1200000, 1]⟩
abbrev S1200000x64 : Shape := ⟨2, ![1200000, 64]⟩
abbrev S1x64 : Shape := ⟨2, ![1, 64]⟩
abbrev S50000x64 : Shape := ⟨2, ![50000, 64]⟩
abbrev S50000x128 : Shape := ⟨2, ![50000, 128]⟩

abbrev nBuf : Space → Nat
  | .hbm => 40
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S2x1200000, .i32⟩
  | .hbm, ⟨2, _⟩ => ⟨S1200000, .f32⟩
  | .hbm, ⟨3, _⟩ => ⟨S256x64, .f32⟩
  | .hbm, ⟨4, _⟩ => ⟨S64, .f32⟩
  | .hbm, ⟨5, _⟩ => ⟨S64, .f32⟩
  | .hbm, ⟨6, _⟩ => ⟨S1x1200000, .i32⟩
  | .hbm, ⟨7, _⟩ => ⟨S1200000, .i32⟩
  | .hbm, ⟨8, _⟩ => ⟨S1x1200000, .i32⟩
  | .hbm, ⟨9, _⟩ => ⟨S1200000, .i32⟩
  | .hbm, ⟨10, _⟩ => ⟨S100000x64, .f32⟩
  | .hbm, ⟨11, _⟩ => ⟨S_, .i32⟩
  | .hbm, ⟨12, _⟩ => ⟨S1200000, .i32⟩
  | .hbm, ⟨13, _⟩ => ⟨S1200000, .i1⟩
  | .hbm, ⟨14, _⟩ => ⟨S_, .i32⟩
  | .hbm, ⟨15, _⟩ => ⟨S1200000, .i32⟩
  | .hbm, ⟨16, _⟩ => ⟨S1200000, .i32⟩
  | .hbm, ⟨17, _⟩ => ⟨S1200000, .i32⟩
  | .hbm, ⟨18, _⟩ => ⟨S1200000x1, .i32⟩
  | .hbm, ⟨19, _⟩ => ⟨S1200000x64, .f32⟩
  | .hbm, ⟨20, _⟩ => ⟨S1200000x1, .f32⟩
  | .hbm, ⟨21, _⟩ => ⟨S1200000x64, .f32⟩
  | .hbm, ⟨22, _⟩ => ⟨S1200000x64, .f32⟩
  | .hbm, ⟨23, _⟩ => ⟨S_, .f32⟩
  | .hbm, ⟨24, _⟩ => ⟨S100000x64, .f32⟩
  | .hbm, ⟨25, _⟩ => ⟨S1200000x1, .i32⟩
  | .hbm, ⟨26, _⟩ => ⟨S100000x64, .f32⟩
  | .hbm, ⟨27, _⟩ => ⟨S1x64, .f32⟩
  | .hbm, ⟨28, _⟩ => ⟨S100000x64, .f32⟩
  | .hbm, ⟨29, _⟩ => ⟨S100000x64, .f32⟩
  | .hbm, ⟨30, _⟩ => ⟨S_, .f32⟩
  | .hbm, ⟨31, _⟩ => ⟨S100000x64, .f32⟩
  | .hbm, ⟨32, _⟩ => ⟨S100000x64, .i1⟩
  | .hbm, ⟨33, _⟩ => ⟨S1x64, .f32⟩
  | .hbm, ⟨34, _⟩ => ⟨S100000x64, .f32⟩
  | .hbm, ⟨35, _⟩ => ⟨S100000x64, .f32⟩
  | .hbm, ⟨36, _⟩ => ⟨S100000x64, .f32⟩
  | .hbm, ⟨37, _⟩ => ⟨S50000x64, .f32⟩
  | .hbm, ⟨38, _⟩ => ⟨S50000x64, .f32⟩
  | .hbm, ⟨39, _⟩ => ⟨S50000x128, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c : Ref sig .tc := ⟨.hbm, 11, rfl⟩
abbrev main_v5 : Ref sig .tc := ⟨.hbm, 12, rfl⟩
abbrev main_v6 : Ref sig .tc := ⟨.hbm, 13, rfl⟩
abbrev main_c_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_1 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩

abbrev nD : Nat := 1
abbrev τ : Topo := Topo.v7x

variable {F : FTy → Type} [FloatOps F]

class Facts₀ : Prop where
  slices_S2x1200000_S1x1200000_0_0 : S2x1200000.Slices ![0, 0] S1x1200000
  shapeCasts_S1x1200000_S1200000 : S1x1200000.ShapeCasts S1200000
  slices_S2x1200000_S1x1200000_1_0 : S2x1200000.Slices ![1, 0] S1x1200000
  bcast_S_S1200000 : S_.BroadcastsInDim S1200000 (![] : Fin 0 → Fin S1200000.rank)
  bcast_S1200000_S1200000x1_0 : S1200000.BroadcastsInDim S1200000x1 (![0] : Fin 1 → Fin S1200000x1.rank)
  bcast_S1200000x1_S1200000x64_0_1 : S1200000x1.BroadcastsInDim S1200000x64 (![0, 1] : Fin 2 → Fin S1200000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  slices_S100000x64_S50000x64_0_0 : S100000x64.Slices ![0, 0] S50000x64
  slices_S100000x64_S50000x64_50000_0 : S100000x64.Slices ![50000, 0] S50000x64
  concatenates_S50000x64_S50000x64_S50000x128_d1 : Shape.Concatenates [S50000x64, S50000x64] S50000x128 1
  dot_S100000x256_S256x64_S100000x64_1_0_0_1_n_n_wf : DotDims.WF S100000x256 S256x64 S100000x64 [1] [0] [0] [1] [] []
  gather_S100000x64_S1200000x1_S1200000x64_1_0_n_n_0_1_164_wf : GatherDims.WF S100000x64 S1200000x1 S1200000x64 [1] [0] [] [0] [] 1 ![1, 64]
  scatter_S100000x64_S1200000x1_S1200000x64_1_0_0_1_wf : ScatterDims.WF S100000x64 S1200000x1 S1200000x64 [1] [0] [0] 1

variable [Facts₀]

def dot_S100000x256_S256x64_S100000x64_1_0_0_1_n_n : DotDims S100000x256 S256x64 S100000x64 where
  lhsContracting := [1]
  rhsContracting := [0]
  lhsNonContracting := [0]
  rhsNonContracting := [1]
  lhsBatch := []
  rhsBatch := []
  wf := dot_S100000x256_S256x64_S100000x64_1_0_0_1_n_n_wf
def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf

class Facts : Prop extends Facts₀ where

variable [Facts]
-- ==== Proof.K.Body0.lean ====
/-
  The first pipeline (the matrix product) at the contents its region is entered with.

  Each of its twenty grid points works on one block of 5000 rows of the node features and on the whole weight
  matrix: the body loads both staging buffers, multiplies them into a zero accumulator, and stores the product
  over the whole of the output's staging buffer. So what a point leaves in the output buffer is one function of
  the two blocks it was handed (`out0_2`), the two input buffers are left as they were, and nothing else is
  touched. The weight matrix is moved into its buffer at the first point only; at every later point its block
  index is the same, so the buffer still holds the block of that point.
-/
import proofs.«169847_j53781580480950_1_alg».proof.Proof.Gen.Kernel.Launch
import proofs.«169847_j53781580480950_1_alg».proof.Proof.Gen.Kernel.Skeleton
import proofs.«169847_j53781580480950_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The feature window's buffer holds its block of rows at every point, for any proof data whose array is the
    entry contents and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight window's buffer holds the weight matrix at every point although it is moved there at the first
    point only: where it is not moved its block index is the one of the point before, and the body leaves the
    buffer as it found it. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole -/

abbrev r0_0 : Rect S5000x256 := Rect.unit (s := S5000x256) ![0, 0] S5000x256.size inb_S5000x256_S5000x256_0_0
abbrev r0_1 : Rect S256x64 := Rect.unit (s := S256x64) ![0, 0] S256x64.size inb_S256x64_S256x64_0_0
abbrev r0_2 : Rect S5000x64 := Rect.unit (s := S5000x64) ![0, 0] S5000x64.size inb_S5000x64_S5000x64_0_0

/-! ## What the body leaves in the output window's buffer -/

/-- The output buffer after the body, from the two input blocks: its one store, of the product of the two loads,
    over the whole buffer. -/
def out0_2 (x0 : Vec F S5000x256 .f32) (x1 : Vec F S256x64 .f32) : Vec F S5000x64 .f32 :=
  View.canon [⟨r0_2, k0_pay1 (View.ld x0 r0_0) (View.ld x1 r0_1)⟩]

/-- The one store covers the buffer. -/
theorem cover0_2 (p0 : Vec F S5000x64 .f32) (y : S5000x64.Idx) :
    ∃ pc ∈ ([⟨r0_2, p0⟩] : List (View.Piece (Elt F) S5000x64 .f32)), y ∈ pc.1.set :=
  View.cover_of_tiled [⟨r0_2, p0⟩] S5000x64.size (by rfl) y

/-! ## The body's triple -/

set_option maxHeartbeats 1000000 in
/-- The body on whole staging memrefs, the inputs' reading `x0` and `x1` and the output's holding anything, runs to
    the continuation with the inputs' as they were and the output's reading `out0_2 x0 x1`. -/
theorem sound_kernel0 (c : Dev nD) (E : Set ℕ) (i : grid0.Coords) (arg0 : Memref sig .tc .vmem S5000x256 .f32) (harg0 : arg0.IsWhole) (arg1 : Memref sig .tc .vmem S256x64 .f32) (harg1 : arg1.IsWhole) (arg2 : Memref sig .tc .vmem S5000x64 .f32) (harg2 : arg2.IsWhole)
    (x0 : Vec F S5000x256 .f32) (x1 : Vec F S256x64 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out0_2 x0 x1)) -∗ K ⟨⟩))
      ⊢ wp frame (wpE (defs₀ (F := F)) Variants.none c none) E (cc0__matmul_kernel i arg0 harg0 arg1 harg1 arg2 harg2) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of the pipeline on core `c`: the arrays as the region finds them; after the body at point `t`
    each input's buffer at its block and the output's at the product of the two blocks; the invariant the scoped
    rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current staging buffer holds its block at every point, moved there at that point or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so the body's triple applies; the invariant and
    the core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Dat1.lean ====
/-
  The second kernel's proof data: what each of its five windows holds at a grid point.

  The kernel reads the aggregated node features through TWO windows on the same array: at point t the first window
  is the block of rows 5000 t … 5000 t + 4999 (a node of the upper half), the second the block of rows
  5000 (t + 10) … (the node 50000 places further down). The bias row and the slope row are whole one-row arrays.
  The body stores one value, the two activated blocks side by side, into the output block of 5000 rows and 128
  columns. The two windows on the shared array each hold half of its full share.
-/
import proofs.«169847_j53781580480950_1_alg».proof.Proof.Gen.Kernel.Launch
import proofs.«169847_j53781580480950_1_alg».proof.Proof.Gen.Kernel.Skeleton
import proofs.«169847_j53781580480950_1_alg».proof.Proof.Gen.Kernel.Points
import Idealize.ShloMosaic.Lib.Pipeline.FrameBody
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The body's accesses: every load and the one store take the whole staging buffer -/

abbrev r1_row : Rect S1x64 := Rect.unit (s := S1x64) ![0, 0] S1x64.size inb_S1x64_S1x64_0_0
abbrev r1_in : Rect S5000x64 := Rect.unit (s := S5000x64) ![0, 0] S5000x64.size inb_S5000x64_S5000x64_0_0
abbrev r1_out : Rect S5000x128 := Rect.unit (s := S5000x128) ![0, 0] S5000x128.size inb_S5000x128_S5000x128_0_0

/-- The output window's staging buffer after the body, from the four input blocks (`x0`, `x1` the two feature
    blocks, `x2` the bias row, `x3` the slope row): its one store, of the payload of the four loads. -/
def out1_4 (x0 x1 : Vec F S5000x64 .f32) (x2 x3 : Vec F S1x64 .f32) : Vec F S5000x128 .f32 :=
  View.canon [⟨r1_out, k1_pay1 (View.ld x2 r1_row) (View.ld x3 r1_row) (View.ld x0 r1_in) (View.ld x1 r1_in)⟩]

/-- The store takes the whole buffer, so it covers it. -/
theorem cover1_4 (p0 : Vec F S5000x128 .f32) (y : S5000x128.Idx) :
    ∃ pc ∈ ([⟨r1_out, p0⟩] : List (View.Piece (Elt F) S5000x128 .f32)), y ∈ pc.1.set :=
  View.cover_of_tiled [⟨r1_out, p0⟩] S5000x128.size (by rfl) y

/-! ## The proof data -/

/-- The proof data of the second kernel's pipeline on core `c`: the arrays as the region finds them; after the
    body at point `t` each input's buffer at its block and the output's at `out1_4` of the input blocks; the
    invariant the scoped rest and the generator register, untouched; nothing owed; the two windows on the shared
    array at the two halves of its full share, the others at the full share. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q w := match w with
    | ⟨0, _⟩ => fullShare.left
    | ⟨1, _⟩ => fullShare.right
    | _ => fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1_4 (iblk1 V c 0 t) (iblk1 V c 1 t) (iblk1 V c 2 t) (iblk1 V c 3 t) := by dsimp only [dat1]

/-- The shares the windows hold their arrays at. -/
theorem share1_0 (c : Dev nD) : (dat1 V c).share 0 = fullShare.left := rfl
theorem share1_1 (c : Dev nD) : (dat1 V c).share 1 = fullShare.right := rfl
theorem share1_2 (c : Dev nD) : (dat1 V c).share 2 = fullShare := rfl
theorem share1_3 (c : Dev nD) : (dat1 V c).share 3 = fullShare := rfl
theorem share1_4 (c : Dev nD) : (dat1 V c).share 4 = fullShare := rfl

end Cert.Kernel.Hand

end
-- ==== Proof.K.Body1.lean ====
/-
  The second kernel's body at a grid point, as a statement about its five staging buffers: given the two feature
  blocks, the bias row and the slope row in the four input buffers, it leaves them as they were and stores into the
  output buffer the one value it computes from them (bias added, activation applied, the two blocks side by side).
  Every input buffer holds its window's block at every point, whether the block was fetched there or stayed from
  the point before (the two one-row arrays are fetched once, at the first point).
-/
import proofs.«169847_j53781580480950_1_alg».proof.Proof.K.Dat1
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The input buffers hold their blocks -/

/-- An input window's current staging buffer holds its block at every point, fetched there or not: unfetched, the
    block index has not moved; the windows are uncut and never idle. -/
theorem before1_0 (c : Dev nD) (t : Fin cfg1.N) (d) : (dat1 V c).before 0 t d = iblk1 V c 0 t :=
  ((dat1 V c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
      (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
      (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl)
      (fun t => by rw [after1_3]; unfold Dat.blockOf iblk1; rw [A_eq1]; try rfl) t d).trans
    (by unfold Dat.fetched Dat.blockOf iblk1; rw [A_eq1]; try rfl)

/-! ## The body's triple -/

set_option maxHeartbeats 1000000 in
/-- The kernel body on whole staging memrefs, the four inputs' at read contents and the output's at anything, runs
    to the continuation holding the inputs' as they were and the output's at `out1_4` of the inputs'. -/
theorem sound_kernel1 (c : Dev nD) (E : Set ℕ) (i : grid1.Coords) (arg1 : Memref sig .tc .vmem S5000x64 .f32) (harg1 : arg1.IsWhole) (arg2 : Memref sig .tc .vmem S5000x64 .f32) (harg2 : arg2.IsWhole)
    (arg3 : Memref sig .tc .vmem S1x64 .f32) (harg3 : arg3.IsWhole) (arg4 : Memref sig .tc .vmem S1x64 .f32) (harg4 : arg4.IsWhole) (arg5 : Memref sig .tc .vmem S5000x128 .f32) (harg5 : arg5.IsWhole)
    (x0 x1 : Vec F S5000x64 .f32) (x2 x3 : Vec F S1x64 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out1_4 x0 x1 x2 x3)) -∗ K ⟨⟩))
      ⊢ wp frame (wpE (defs₀ (F := F)) Variants.none c none) E
          (cc1__prelu_cat_kernel i arg1 harg1 arg2 harg2 arg3 harg3 arg4 harg4 arg5 harg5) K := by
  simp only [cc1__prelu_cat_kernel_eq_skeleton]; unfold cc1__prelu_cat_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' memrefs hold their blocks, so the triple applies; the invariant and what
    the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ (grid1.coords t) _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.LibSharedFrame.lean ====
/-
  The frame run of a pipeline kernel whose windows may SHARE ARRAYS (one array handed to the kernel through
  several input windows), for a body that carries a scratch buffer between grid points.

  The library's frame run with a tracking invariant takes the layout bundled with the windows' arrays pairwise
  distinct, and uses that distinctness in one place only: to turn the buffers behind the arrays, each whole at the
  full share, into the proof data's arrays at entry. Here that entailment is an argument (`hsplit`), and the layout
  is given by its fields with the distinctness left out.
-/
import Idealize.ShloMosaic.Lib.Pipeline.Frame

noncomputable section

namespace Idealize.ShloMosaic

open Idealize.SL
open Idealize.SL.BI (sProp bigSep bigSep_map)
open scoped Idealize.SL.BI
open Idealize.SL.BI.BIBase Idealize.SL.BI.Laws Idealize.SL.Sem Idealize.SL.ProofMode
open Idealize.SL.RA
open TcCoe

set_option Elab.async false

variable {nD : Nat} {τ : Topo} {sig : RefSig} {Val : EltTy → Type}

/-- A buffer held at the full share is the same buffer held twice, at the left and at the right half of the full
    share, at the same contents (on any set of elements `I`). -/
theorem pointsTo_fullShare_halves {Ix : Type} [DecidableEq Ix] {Name : Type} [DecidableEq Name] {U : Type} [URA U] {Lvl : Type}
    (ℓ : Loc nD τ sig) (I : Finset (Idx ℓ)) (f : Buf Val ℓ) :
    (ℓ ↦[I]{fullShare} f : sProp (MT nD τ sig Ix Val Name U Lvl))
      ⊣⊢ iprop((ℓ ↦[I]{fullShare.left} f) ∗ ℓ ↦[I]{fullShare.right} f) :=
  pointsTo_share (PosShare.mem_left_op_right fullShare)

namespace Pipeline

open Idealize.ShloMosaic.Rounds

section SharedFrame

variable {Λ₀ : SL.Sem.Labels} {P : Type} [Fintype P] [DecidableEq P] [∀ e, Nonempty (Val e)]

local notation "𝕄" => MT nD τ sig Unit Val ℕ (UR sig nD τ) ℕ

variable (cfgs : P → Cfg sig Λ₀)
  (dats : (p : P) → (c : Dev nD) → Dat τ Val Unit ℕ (UR sig nD τ) ℕ (cfgs p) c) (p : P)
  (hinj : Function.Injective (cellOf (nD := nD) (τ := τ) cfgs))
  (hw : WinFacts₀ (cfgs p).spec)
  (hne : ∀ w : Fin (cfgs p).W, 0 < ((cfgs p).spec w).block.numel)
  (harr : ∀ w : Fin (cfgs p).W, ((cfgs p).spec w).arr.IsWhole)
  (hstage : ∀ (w : Fin (cfgs p).W) (s : Fin ((cfgs p).spec w).nbuf), (((cfgs p).spec w).stage s).IsWhole)
  (defs₀ : Defs nD τ sig Val Λ₀) (𝒱₀ : Variants)

local notation "cfg" => cfgs p
local notation "𝔻" => Pipeline.defs (fun q => Cfg.toPCfg (Val := Val) (cfgs q)) defs₀

include hinj hw hne harr hstage in
/-- THE FRAME RUN with a TRACKING invariant for a kernel whose windows may SHARE ARRAYS. As the library's
    `θ_run_frame_track`: one region on a static grid, no semaphore or transfer of the kernel's own, the proof data's
    `Φ` any invariant stated point by point (what the body carries in its scratch), entered from the class invariant
    `ΦA` before point 0 (`hin`) and returned to it after the last point (`hout`). In place of the bundled layout it
    takes the layout's fields without the arrays' distinctness (`hinj`: the staging cells pairwise distinct; `hw`:
    arrays unscoped, staging buffers and semaphores scoped and distinct; `hne`: no block empty; `harr`, `hstage`:
    every array and staging memref a whole buffer), and in place of "every window holds its array at the full share,
    at the entry contents" the entailment `hsplit`: the DISTINCT buffers behind the arrays, each whole at the full share
    at the region-entry contents `V c`, yield the proof data's arrays at entry — an array read through several input
    windows dealt among them by shares the data's `q` names. Concludes `FramePost`: every window's array holds the
    data's `arrAt w N` (windows on one array read the same final contents), every bypassing buffer its entry contents. -/
theorem θ_run_frame_track_shared
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (howed : ∀ c t, (dats p c).owed t = 0)
    (V : (c : Dev nD) → (b : Ref sig .tc) → Buf Val ((c.tc : Thread nD τ).loc b))
    (hmain : HMain (Ix := Unit) (Name := ℕ) (U := UR sig nD τ) (Lvl := ℕ) cfgs p defs₀ 𝒱₀ m main V)
    (hsplit : ∀ c, (arrBufs (cfg).spec c (V c) : sProp 𝕄) ⊢ (dats p c).arrays ((dats p c).arrAt · 0))
    (hin : ∀ c, ΦA (cfg).spec c ⊢ (dats p c).Φ 0) (hout : ∀ c, (dats p c).Φ (Fin.last (cfg).N) ⊢ ΦA (cfg).spec c) :
    θ_run 𝔻 (onTc main) (s₀ m g) (FramePost cfgs dats p V) := by
  classical
  exact θ_run_region_pf (fun q => (cfgs q).toPCfg (Val := Val)) (fun q => (cfgs q).toPCfg_adm) dats () hinj p hw
    (OwnSemFacts.none (cfg).spec) (PreFacts.none _) emb₁ defs₀ 𝒱₀ m g main
    hbody hne harr hstage howed
    (G := fun _ => iprop(emp)) (u₀ := initOf (cells cfgs hinj) (launchToks cfgs hinj))
    (hu₀ := by
      iintro Hu; imodintro
      isplitl [Hu]; · iapply (show (ownU _ : sProp 𝕄) ⊢ BI.own (emb₁ (initOf (cells cfgs hinj) (launchToks cfgs hinj))) from .rfl); iexact Hu
      iapply (show (BI.emp : sProp 𝕄) ⊢ bigSep Finset.univ (fun _ : Dev nD => (BI.emp : sProp 𝕄)) from by rw [BI.bigSep_emp_const])
      iempintro)
    (V := V) (hmain := hmain) (hsplit := hsplit) (hpf := fun _ k => k.elim0)
    (X := fun c => iprop(∃ r, prngReg c r)) (Y := fun c => iprop(∃ r, prngReg c r))
    (Z := fun c => unscopedRest (Ix := Unit) (Name := ℕ) (U := UR sig nD τ) (Lvl := ℕ) (cfg).spec c (V c))
    (hX := fun c => by
      rw [unscopedRestP_none]
      iintro ⟨HU, -, -, -, Hp, -⟩; imodintro
      isplitl [Hp]; · iexists _; iexact Hp
      iexact HU)
    (hin := fun c => (show _ ⊢ ΦA (cfg).spec c by
        unfold ΦA; iintro ⟨Hp, -, Hr⟩
        isplitl [Hr] <;> iassumption).trans (hin c))
    (hout := fun c => (hout c).trans (by
        rw [ownSems0_none]; unfold ΦA
        iintro ⟨Hr, Hp⟩
        isplitl [Hp]; · iexact Hp
        isplitr; · iempintro
        iexact Hr))
    (QY := fun c s => ∀ b ∈ restRefs sig (cfg).spec, s.mem ((c.tc : Thread nD τ).loc b) = V c b)
    (hY := fun c s' => by
      iintro ⟨-, HU, HSI⟩
      unfold unscopedRest
      imodintro
      iapply (pointsTo_read_all (restRefs sig (cfg).spec) (fun b => (c.tc : Thread nD τ).loc b) (V c) s')
      isplitl [HU] <;> iassumption)
    (hQ := fun s h c => ⟨(h c).1, (h c).2.2⟩)

end SharedFrame

end Pipeline

end Idealize.ShloMosaic

end
-- ==== Proof.K.Share1.lean ====
/-
  The second kernel reads ONE array, the aggregated node features, through two windows. The core's unscoped
  buffers are the four distinct arrays behind the five windows, each whole at the full share, beside the rest;
  the pipeline's five arrays are the same four buffers with the shared one held twice, at the left and at the right
  half of its full share. A full share is its two halves, so the two descriptions are interchangeable: at entry the
  shared array is dealt to the two windows, at the exit (an input array is never written, so both windows still
  read the entry contents) the halves are joined again.
-/
import proofs.«169847_j53781580480950_1_alg».proof.Proof.K.Dat1
import proofs.«169847_j53781580480950_1_alg».proof.Proof.LibSharedFrame
import Idealize.ShloMosaic.Lib.Pipeline.RegionsLoop

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The arrays behind the five windows are four distinct buffers. -/
theorem arrRefs1 : Finset.univ.image (Pipeline.arrRef spec1) = [main_v17, main_v18, main_v19, main_v20].toFinset := by decide

/-- The distinct buffers behind the windows' arrays, one by one. -/
theorem arrBufs1_eq (c : Dev nD) (X : (b : Ref sig .tc) → Buf (Elt F) ((c : Thread nD τ).loc b)) :
    (Pipeline.arrBufs spec1 c X : sProp 𝕄)
      = iprop((((c : Thread nD τ).loc main_v17) ↦{fullShare} X main_v17) ∗ (((c : Thread nD τ).loc main_v18) ↦{fullShare} X main_v18)
          ∗ (((c : Thread nD τ).loc main_v19) ↦{fullShare} X main_v19) ∗ (((c : Thread nD τ).loc main_v20) ↦{fullShare} X main_v20)) := by
  unfold Pipeline.arrBufs
  exact bigSep_eq_bigSepL_of_eq [main_v17, main_v18, main_v19, main_v20] arrRefs1 (by decide) _

/-- The pipeline's arrays, window by window: the shared array twice, at the two halves of the full share. -/
theorem arrays1_eq (c : Dev nD) (G : (w : Fin cfg1.W) → Buf (Elt F) ((cfg1.win w).arr.view.loc (c : Thread nD τ))) :
    ((dat1 V c).arrays G : sProp 𝕄)
      = iprop((((c : Thread nD τ).loc main_v17) ↦{fullShare.left} G 0) ∗ (((c : Thread nD τ).loc main_v17) ↦{fullShare.right} G 1)
          ∗ (((c : Thread nD τ).loc main_v18) ↦{fullShare} G 2) ∗ (((c : Thread nD τ).loc main_v19) ↦{fullShare} G 3)
          ∗ (((c : Thread nD τ).loc main_v20) ↦{fullShare} G 4)) := by
  unfold Dat.arrays
  rw [bigSep_W1, (arr_whole1 0).set_eq_univ, (arr_whole1 2).set_eq_univ, (arr_whole1 3).set_eq_univ,
    (arr_whole1 4).set_eq_univ, share1_0, share1_1, share1_2, share1_3, share1_4]

/-- ENTRY: the core's unscoped buffers at the entry contents are the pipeline's arrays at the proof data's entry
    contents, the shared array's full share dealt in halves to its two windows, beside the unscoped rest. -/
theorem arrays1_of_unscopedBufs (c : Dev nD) :
    (unscopedBufs c (V c) : sProp 𝕄) ⊢ iprop((dat1 V c).arrays ((dat1 V c).arrAt · 0) ∗ Pipeline.unscopedRest spec1 c (V c)) := by
  have hsplit : (unscopedBufs c (V c) : sProp 𝕄) = iprop((Pipeline.arrBufs spec1 c (V c) : sProp 𝕄) ∗ Pipeline.unscopedRest spec1 c (V c)) :=
    Pipeline.unscopedBufs_split₀ cfgs 1 winFacts₀1.arr_unscoped c (V c)
  rw [hsplit, arrBufs1_eq, arrays1_eq]
  refine sep_mono ?_ .rfl
  rw [show (dat1 V c).arrAt 0 0 = V c main_v17 from rfl, show (dat1 V c).arrAt 1 0 = V c main_v17 from rfl,
    show (dat1 V c).arrAt 2 0 = V c main_v18 from rfl, show (dat1 V c).arrAt 3 0 = V c main_v19 from rfl,
    show (dat1 V c).arrAt 4 0 = V c main_v20 from rfl]
  iintro ⟨H17, H18, H19, H20⟩
  have hdeal : (((c : Thread nD τ).loc main_v17) ↦{fullShare} V c main_v17 : sProp 𝕄)
      ⊢ iprop((((c : Thread nD τ).loc main_v17) ↦{fullShare.left} V c main_v17) ∗ (((c : Thread nD τ).loc main_v17) ↦{fullShare.right} V c main_v17)) :=
    (pointsTo_fullShare_halves _ _ _).1
  ihave H := hdeal $$ H17
  icases H with ⟨Ha, Hb⟩
  isplitl [Ha]; · iexact Ha
  isplitl [Hb]; · iexact Hb
  isplitl [H18]; · iexact H18
  isplitl [H19]; · iexact H19
  iexact H20

/-- EXIT: the pipeline's arrays at what it leaves — an input array is never written, so the two windows on the
    shared array both still read its entry contents and their halves join into its full share — beside the unscoped
    rest are the core's unscoped buffers at any contents that have the output array at what the write-backs left and
    agree with the entry contents elsewhere. -/
theorem unscopedBufs_of_arrays1 (c : Dev nD) (V' : (b : Ref sig .tc) → Buf (Elt F) ((c : Thread nD τ).loc b))
    (hout : V' (Pipeline.arrRef spec1 4) = (dat1 V c).arrAt 4 cfg1.N)
    (hrest : ∀ b, b ≠ Pipeline.arrRef spec1 4 → V' b = V c b) :
    iprop((dat1 V c).arrays ((dat1 V c).arrAt · cfg1.N) ∗ Pipeline.unscopedRest spec1 c (V c)) ⊢ (unscopedBufs c V' : sProp 𝕄) := by
  have hsplit : (unscopedBufs c V' : sProp 𝕄) = iprop((Pipeline.arrBufs spec1 c V' : sProp 𝕄) ∗ Pipeline.unscopedRest spec1 c V') :=
    Pipeline.unscopedBufs_split₀ cfgs 1 winFacts₀1.arr_unscoped c V'
  have e0 : (dat1 V c).arrAt 0 cfg1.N = V c main_v17 := ((dat1 V c).arrAt_in 0 rfl _).trans rfl
  have e1 : (dat1 V c).arrAt 1 cfg1.N = V c main_v17 := ((dat1 V c).arrAt_in 1 rfl _).trans rfl
  have e2 : (dat1 V c).arrAt 2 cfg1.N = V c main_v18 := ((dat1 V c).arrAt_in 2 rfl _).trans rfl
  have e3 : (dat1 V c).arrAt 3 cfg1.N = V c main_v19 := ((dat1 V c).arrAt_in 3 rfl _).trans rfl
  have e4 : (dat1 V c).arrAt 4 cfg1.N = V' main_v20 := hout.symm
  rw [hsplit, arrBufs1_eq, arrays1_eq]
  refine sep_mono ?_ (Entails.of_eq ?_)
  · beta_reduce
    rw [e0, e1, e2, e3, e4, hrest main_v17 (by decide), hrest main_v18 (by decide), hrest main_v19 (by decide)]
    have hjoin : iprop((((c : Thread nD τ).loc main_v17) ↦{fullShare.left} V c main_v17) ∗ (((c : Thread nD τ).loc main_v17) ↦{fullShare.right} V c main_v17))
        ⊢ (((c : Thread nD τ).loc main_v17) ↦{fullShare} V c main_v17 : sProp 𝕄) :=
      (pointsTo_fullShare_halves _ _ _).2
    iintro ⟨Ha, Hb, H18, H19, H20⟩
    isplitl [Ha Hb]
    · iapply hjoin
      isplitl [Ha]; · iexact Ha
      iexact Hb
    isplitl [H18]; · iexact H18
    isplitl [H19]; · iexact H19
    iexact H20
  · unfold Pipeline.unscopedRest
    exact bigSep_congr fun b hb => by
      rw [hrest b fun e => (Finset.mem_sdiff.mp hb).2 (Finset.mem_image.mpr ⟨4, Finset.mem_univ _, e.symm⟩)]

end Cert.Kernel.Hand

end
-- ==== Proof.K.Run.lean ====
/-
  The whole program as one run: the first kernel region, the host operations between the regions, the second
  kernel region, from the launch memory to the return — with the contents of every unscoped buffer named at each
  boundary, so that the final state is known buffer by buffer.

  After the first region the product array holds what the region's write-backs leave and every other buffer its
  launch contents; the host operations then act on that valuation; after the second region the result array holds
  what its write-backs leave and every other buffer what the host operations left. No argument array is written by
  any of the three, so each ends at its launch contents, and the result array ends at the second region's folded
  write-backs.

  The second region reads ONE array (the aggregate) through two input windows. Its entry and exit therefore deal the
  array's full share to the two windows in halves and join the halves again.
-/
import proofs.«169847_j53781580480950_1_alg».proof.Proof.Gen.Kernel.Regions
import proofs.«169847_j53781580480950_1_alg».proof.Proof.K.Body0
import proofs.«169847_j53781580480950_1_alg».proof.Proof.K.Body1
import proofs.«169847_j53781580480950_1_alg».proof.Proof.K.Share1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch (the first region's entry). -/
abbrev W0 : Dev nD → Valuation τ sig (Elt F) := fun c b => (s₀ m ρ).mem ((c : Dev nD), b)
/-- The same read at the core's own references. -/
abbrev E0 : (c : Dev nD) → (b : Ref sig .tc) → Buf (Elt F) ((c : Thread nD τ).loc b) := fun c b => W0 m ρ c b

/-- At the first region's exit: its arrays at what the pipeline leaves, every other buffer as entered. -/
def W1 (c : Dev nD) : Valuation τ sig (Elt F) :=
  Pipeline.withArrays spec0 c (W0 m ρ c) fun w => (dat0 (E0 m ρ) c).arrAt w cfg0.N
theorem W1_arr (c : Dev nD) (w : Fin cfg0.W) :
    W1 m ρ c (Proc.devRef .tc (Pipeline.arrRef spec0 w)) = (dat0 (E0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev E1 : (c : Dev nD) → (b : Ref sig .tc) → Buf (Elt F) ((c : Thread nD τ).loc b) := fun c b => W1 m ρ c b
theorem hF0 (c : Dev nD) (w : Fin cfg0.W) : (dat0 (E0 m ρ) c).arrAt w cfg0.N = E1 m ρ c (Pipeline.arrRef spec0 w) :=
  (W1_arr m ρ c w).symm
theorem hrest0 (c : Dev nD) : ∀ b, b ∉ Finset.univ.image (Pipeline.arrRef spec0) → E1 m ρ c b = E0 m ρ c b :=
  fun b hb => W1_of_ne m ρ c b fun w e => hb (Finset.mem_image.mpr ⟨w, Finset.mem_univ _, e⟩)

/-- After the host operations between the regions (the second region's entry). -/
abbrev W2 : Dev nD → Valuation τ sig (Elt F) := fun c => StableHlo.after hostOps1 (W1 m ρ c)
abbrev E2 : (c : Dev nD) → (b : Ref sig .tc) → Buf (Elt F) ((c : Thread nD τ).loc b) := fun c b => W2 m ρ c b

/-- At the second region's exit: the result array at what the pipeline leaves, every other buffer as entered. -/
def W3 (c : Dev nD) : Valuation τ sig (Elt F) :=
  Function.update (W2 m ρ c) (Proc.devRef .tc main_v20) ((dat1 (E2 m ρ) c).arrAt 4 cfg1.N)
theorem W3_out (c : Dev nD) : W3 m ρ c (Proc.devRef .tc main_v20) = (dat1 (E2 m ρ) c).arrAt 4 cfg1.N := by
  unfold W3; exact Function.update_self _ _ _
theorem W3_of_ne (c : Dev nD) (b : Ref sig .tc) (hb : b ≠ main_v20) :
    W3 m ρ c (Proc.devRef .tc b) = W2 m ρ c (Proc.devRef .tc b) := by
  unfold W3; exact Function.update_of_ne (StableHlo.devRef_ne_of_ne hb) _ _

/-- No host operation between the regions writes `r` when `r` is none of their results. -/
theorem W2_of (c : Dev nD) (r : Ref sig .tc) (h : r ∉ hostOps1_W) : W2 m ρ c r = W1 m ρ c r :=
  StableHlo.after_of_writes_sub hostOps1 _ hostOps1_writes h

/-! ## The arguments end as launched

No host operation and no region writes an argument array: the second region bypasses all six, the host operations
write only their own results, and the first region reads the node features and the weights through input windows
(an input window's array is never changed) and bypasses the rest. -/

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := W3_of_ne m ρ c main_arg0 (by decide)
    _ = W1 m ρ c (Proc.devRef .tc main_arg0) := W2_of m ρ c main_arg0 (by decide)
    _ = W0 m ρ c (Proc.devRef .tc main_arg0) := (W1_arr m ρ c 0).trans (((dat0 (E0 m ρ) c).arrAt_in 0 rfl _).trans (A_eq0 (E0 m ρ) c 0))
    _ = m ((c : Thread nD τ).loc main_arg0) := rfl
theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := W3_of_ne m ρ c main_arg3 (by decide)
    _ = W1 m ρ c (Proc.devRef .tc main_arg3) := W2_of m ρ c main_arg3 (by decide)
    _ = W0 m ρ c (Proc.devRef .tc main_arg3) := (W1_arr m ρ c 1).trans (((dat0 (E0 m ρ) c).arrAt_in 1 rfl _).trans (A_eq0 (E0 m ρ) c 1))
    _ = m ((c : Thread nD τ).loc main_arg3) := rfl
/-- An argument the first region bypasses. -/
theorem W3_bypassed (c : Dev nD) (b : Ref sig .tc) (h3 : b ≠ main_v20) (h2 : b ∉ hostOps1_W)
    (h1 : ∀ w, Pipeline.arrRef spec0 w ≠ b) : W3 m ρ c (Proc.devRef .tc b) = m ((c : Thread nD τ).loc b) :=
  (W3_of_ne m ρ c b h3).trans ((W2_of m ρ c b h2).trans ((W1_of_ne m ρ c b h1).trans rfl))
theorem W3_main_arg1 (c : Dev nD) : W3 m ρ c (Proc.devRef .tc main_arg1) = m ((c : Thread nD τ).loc main_arg1) :=
  W3_bypassed m ρ c main_arg1 (by decide) (by decide) (by decide)
theorem W3_main_arg2 (c : Dev nD) : W3 m ρ c (Proc.devRef .tc main_arg2) = m ((c : Thread nD τ).loc main_arg2) :=
  W3_bypassed m ρ c main_arg2 (by decide) (by decide) (by decide)
theorem W3_main_arg4 (c : Dev nD) : W3 m ρ c (Proc.devRef .tc main_arg4) = m ((c : Thread nD τ).loc main_arg4) :=
  W3_bypassed m ρ c main_arg4 (by decide) (by decide) (by decide)
theorem W3_main_arg5 (c : Dev nD) : W3 m ρ c (Proc.devRef .tc main_arg5) = m ((c : Thread nD τ).loc main_arg5) :=
  W3_bypassed m ρ c main_arg5 (by decide) (by decide) (by decide)

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (E0 m ρ) c
  | ⟨1, _⟩ => fun c => dat1 (E2 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues, at nothing. -/
abbrev R (c : Dev nD) : sProp 𝕄 := iprop((∃ r, prngReg c r) ∗ ∃ W, owes (c : Thread nD τ) (0 : CellTallies nD τ sig Unit) W)
/-- The host operations between the regions as a segment over the unscoped references, `R` riding along. -/
abbrev hseg (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) W R
/-- An unscoped reference of the core is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator register at some state. -/
abbrev Tₙ (c : Dev nD) : sProp 𝕄 := iprop(StableHlo.held (c : Thread nD τ) (Pipeline.ucRefs τ sig) (W3 m ρ c) ∗ ∃ r, prngReg c r)

/-! ## The regions as segments -/

set_option backward.isDefEq.respectTransparency.types false in
/-- The first region: entered from every unscoped buffer at the launch contents, left at `W1`. Its arrays are
    distinct buffers, split out of the unscoped buffers at the full share and put back at the exit contents. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (E0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (E0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (E0 m ρ c) (E1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region: entered from every unscoped buffer at `W2`, left at `W3`. Two of its input windows are on
    one array, so its arrays are split out of the unscoped buffers with that array's full share dealt to the two
    windows in halves, and put back with the halves joined. -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (body_obligation1 (E2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E2 m ρ c)
  hentry c := by
    rw [Pipeline.ownSems0_none]
    have hsplit := arrays1_of_unscopedBufs (E2 m ρ) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((pdats m ρ 1 c).arrays ((pdats m ρ 1 c).arrAt · cfg1.N)
          ∗ Pipeline.unscopedRest (Ix := Unit) (Name := ℕ) (U := UR sig nD τ) (Lvl := ℕ) spec1 c (E2 m ρ c))
        ⊢ (unscopedBufs c (fun b => W3 m ρ c b) : sProp 𝕄) :=
      unscopedBufs_of_arrays1 (E2 m ρ) c (fun b => W3 m ρ c b) (W3_out m ρ c) (fun b hb => W3_of_ne m ρ c b hb)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

/-- The program's three segments in order. -/
abbrev items : List (Pipeline.Seg (pcfgs (F := F)) adm (pdats m ρ) () defs₀ 𝒱₀ L lv) :=
  [ .region (reg0 m ρ),
    .host (hseg (W1 m ρ)),
    .region (reg1 m ρ) ]
/-- The program IS the run of the segments. -/
theorem main_run (c : Dev nD) : main (F := F) c = Pipeline.Seg.run (items m ρ) :=
  main_segs adm (pdats m ρ) () 𝒱₀ L lv (hseg (W1 m ρ)) (reg0 m ρ) (reg1 m ρ) rfl c

set_option backward.isDefEq.respectTransparency.types false in
/-- THE RUN, at any `F`: from any memory with zero counters every weakly fair execution of the program terminates,
    nothing faulting, and the final memory holds every unscoped buffer of every core at the last boundary's
    contents `W3`. -/
theorem run : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (items m ρ)
    (fun c Q => by rw [main_run m ρ c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

/-- The frame: every argument array ends at its launch contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c),
     (h c _ (mem_uc main_arg4 (by decide))).trans (W3_main_arg4 m ρ c),
     (h c _ (mem_uc main_arg5 (by decide))).trans (W3_main_arg5 m ρ c)⟩) (run m ρ)

/-- The run with the result array named: it ends at what the second region's write-backs leave. -/
theorem run_result : θ_run defs (onTc (τ := τ) (main (F := F))) ⟨m, fun _ => 0, ρ⟩ (fun r => ∀ c : Dev nD,
      r.2.mem ((c.tc : Thread nD τ).loc main_v20) = (dat1 (E2 m ρ) c).arrAt 4 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_v20 (by decide))).trans (W3_out m ρ c),
     (h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c),
     (h c _ (mem_uc main_arg4 (by decide))).trans (W3_main_arg4 m ρ c),
     (h c _ (mem_uc main_arg5 (by decide))).trans (W3_main_arg5 m ρ c)⟩) (run m ρ)

end Cert.Kernel.Hand

end
-- ==== Proof.KI.Body0.lean ====
/-
  The first pipeline (the matrix product) at the contents its region is entered with.

  Each of its twenty grid points works on one block of 5000 rows of the node features and on the whole weight
  matrix: the body loads both staging buffers, multiplies them into a zero accumulator, and stores the product
  over the whole of the output's staging buffer. So what a point leaves in the output buffer is one function of
  the two blocks it was handed (`out0_2`), the two input buffers are left as they were, and nothing else is
  touched. The weight matrix is moved into its buffer at the first point only; at every later point its block
  index is the same, so the buffer still holds the block of that point.
-/
import proofs.«169847_j53781580480950_1_alg».proof.Proof.Gen.KernelIdeal.Launch
import proofs.«169847_j53781580480950_1_alg».proof.Proof.Gen.KernelIdeal.Skeleton
import proofs.«169847_j53781580480950_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The feature window's buffer holds its block of rows at every point, for any proof data whose array is the
    entry contents and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight window's buffer holds the weight matrix at every point although it is moved there at the first
    point only: where it is not moved its block index is the one of the point before, and the body leaves the
    buffer as it found it. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole -/

abbrev r0_0 : Rect S5000x256 := Rect.unit (s := S5000x256) ![0, 0] S5000x256.size inb_S5000x256_S5000x256_0_0
abbrev r0_1 : Rect S256x64 := Rect.unit (s := S256x64) ![0, 0] S256x64.size inb_S256x64_S256x64_0_0
abbrev r0_2 : Rect S5000x64 := Rect.unit (s := S5000x64) ![0, 0] S5000x64.size inb_S5000x64_S5000x64_0_0

/-! ## What the body leaves in the output window's buffer -/

/-- The output buffer after the body, from the two input blocks: its one store, of the product of the two loads,
    over the whole buffer. -/
def out0_2 (x0 : Vec F S5000x256 .f32) (x1 : Vec F S256x64 .f32) : Vec F S5000x64 .f32 :=
  View.canon [⟨r0_2, k0_pay1 (View.ld x0 r0_0) (View.ld x1 r0_1)⟩]

/-- The one store covers the buffer. -/
theorem cover0_2 (p0 : Vec F S5000x64 .f32) (y : S5000x64.Idx) :
    ∃ pc ∈ ([⟨r0_2, p0⟩] : List (View.Piece (Elt F) S5000x64 .f32)), y ∈ pc.1.set :=
  View.cover_of_tiled [⟨r0_2, p0⟩] S5000x64.size (by rfl) y

/-! ## The body's triple -/

set_option maxHeartbeats 1000000 in
/-- The body on whole staging memrefs, the inputs' reading `x0` and `x1` and the output's holding anything, runs to
    the continuation with the inputs' as they were and the output's reading `out0_2 x0 x1`. -/
theorem sound_kernel0 (c : Dev nD) (E : Set ℕ) (i : grid0.Coords) (arg0 : Memref sig .tc .vmem S5000x256 .f32) (harg0 : arg0.IsWhole) (arg1 : Memref sig .tc .vmem S256x64 .f32) (harg1 : arg1.IsWhole) (arg2 : Memref sig .tc .vmem S5000x64 .f32) (harg2 : arg2.IsWhole)
    (x0 : Vec F S5000x256 .f32) (x1 : Vec F S256x64 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out0_2 x0 x1)) -∗ K ⟨⟩))
      ⊢ wp frame (wpE (defs₀ (F := F)) Variants.none c none) E (cc0__matmul_kernel i arg0 harg0 arg1 harg1 arg2 harg2) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of the pipeline on core `c`: the arrays as the region finds them; after the body at point `t`
    each input's buffer at its block and the output's at the product of the two blocks; the invariant the scoped
    rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current staging buffer holds its block at every point, moved there at that point or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so the body's triple applies; the invariant and
    the core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Dat1.lean ====
/-
  The second kernel's proof data: what each of its five windows holds at a grid point.

  The kernel reads the aggregated node features through TWO windows on the same array: at point t the first window
  is the block of rows 5000 t … 5000 t + 4999 (a node of the upper half), the second the block of rows
  5000 (t + 10) … (the node 50000 places further down). The bias row and the slope row are whole one-row arrays.
  The body stores one value, the two activated blocks side by side, into the output block of 5000 rows and 128
  columns. The two windows on the shared array each hold half of its full share.
-/
import proofs.«169847_j53781580480950_1_alg».proof.Proof.Gen.KernelIdeal.Launch
import proofs.«169847_j53781580480950_1_alg».proof.Proof.Gen.KernelIdeal.Skeleton
import proofs.«169847_j53781580480950_1_alg».proof.Proof.Gen.KernelIdeal.Points
import Idealize.ShloMosaic.Lib.Pipeline.FrameBody
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The body's accesses: every load and the one store take the whole staging buffer -/

abbrev r1_row : Rect S1x64 := Rect.unit (s := S1x64) ![0, 0] S1x64.size inb_S1x64_S1x64_0_0
abbrev r1_in : Rect S5000x64 := Rect.unit (s := S5000x64) ![0, 0] S5000x64.size inb_S5000x64_S5000x64_0_0
abbrev r1_out : Rect S5000x128 := Rect.unit (s := S5000x128) ![0, 0] S5000x128.size inb_S5000x128_S5000x128_0_0

/-- The output window's staging buffer after the body, from the four input blocks (`x0`, `x1` the two feature
    blocks, `x2` the bias row, `x3` the slope row): its one store, of the payload of the four loads. -/
def out1_4 (x0 x1 : Vec F S5000x64 .f32) (x2 x3 : Vec F S1x64 .f32) : Vec F S5000x128 .f32 :=
  View.canon [⟨r1_out, k1_pay1 (View.ld x2 r1_row) (View.ld x3 r1_row) (View.ld x0 r1_in) (View.ld x1 r1_in)⟩]

/-- The store takes the whole buffer, so it covers it. -/
theorem cover1_4 (p0 : Vec F S5000x128 .f32) (y : S5000x128.Idx) :
    ∃ pc ∈ ([⟨r1_out, p0⟩] : List (View.Piece (Elt F) S5000x128 .f32)), y ∈ pc.1.set :=
  View.cover_of_tiled [⟨r1_out, p0⟩] S5000x128.size (by rfl) y

/-! ## The proof data -/

/-- The proof data of the second kernel's pipeline on core `c`: the arrays as the region finds them; after the
    body at point `t` each input's buffer at its block and the output's at `out1_4` of the input blocks; the
    invariant the scoped rest and the generator register, untouched; nothing owed; the two windows on the shared
    array at the two halves of its full share, the others at the full share. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q w := match w with
    | ⟨0, _⟩ => fullShare.left
    | ⟨1, _⟩ => fullShare.right
    | _ => fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1_4 (iblk1 V c 0 t) (iblk1 V c 1 t) (iblk1 V c 2 t) (iblk1 V c 3 t) := by dsimp only [dat1]

/-- The shares the windows hold their arrays at. -/
theorem share1_0 (c : Dev nD) : (dat1 V c).share 0 = fullShare.left := rfl
theorem share1_1 (c : Dev nD) : (dat1 V c).share 1 = fullShare.right := rfl
theorem share1_2 (c : Dev nD) : (dat1 V c).share 2 = fullShare := rfl
theorem share1_3 (c : Dev nD) : (dat1 V c).share 3 = fullShare := rfl
theorem share1_4 (c : Dev nD) : (dat1 V c).share 4 = fullShare := rfl

end Cert.KernelIdeal.Hand

end
-- ==== Proof.KI.Body1.lean ====
/-
  The second kernel's body at a grid point, as a statement about its five staging buffers: given the two feature
  blocks, the bias row and the slope row in the four input buffers, it leaves them as they were and stores into the
  output buffer the one value it computes from them (bias added, activation applied, the two blocks side by side).
  Every input buffer holds its window's block at every point, whether the block was fetched there or stayed from
  the point before (the two one-row arrays are fetched once, at the first point).
-/
import proofs.«169847_j53781580480950_1_alg».proof.Proof.KI.Dat1
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The input buffers hold their blocks -/

/-- An input window's current staging buffer holds its block at every point, fetched there or not: unfetched, the
    block index has not moved; the windows are uncut and never idle. -/
theorem before1_0 (c : Dev nD) (t : Fin cfg1.N) (d) : (dat1 V c).before 0 t d = iblk1 V c 0 t :=
  ((dat1 V c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
      (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
      (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl)
      (fun t => by rw [after1_3]; unfold Dat.blockOf iblk1; rw [A_eq1]; try rfl) t d).trans
    (by unfold Dat.fetched Dat.blockOf iblk1; rw [A_eq1]; try rfl)

/-! ## The body's triple -/

set_option maxHeartbeats 1000000 in
/-- The kernel body on whole staging memrefs, the four inputs' at read contents and the output's at anything, runs
    to the continuation holding the inputs' as they were and the output's at `out1_4` of the inputs'. -/
theorem sound_kernel1 (c : Dev nD) (E : Set ℕ) (i : grid1.Coords) (arg1 : Memref sig .tc .vmem S5000x64 .f32) (harg1 : arg1.IsWhole) (arg2 : Memref sig .tc .vmem S5000x64 .f32) (harg2 : arg2.IsWhole)
    (arg3 : Memref sig .tc .vmem S1x64 .f32) (harg3 : arg3.IsWhole) (arg4 : Memref sig .tc .vmem S1x64 .f32) (harg4 : arg4.IsWhole) (arg5 : Memref sig .tc .vmem S5000x128 .f32) (harg5 : arg5.IsWhole)
    (x0 x1 : Vec F S5000x64 .f32) (x2 x3 : Vec F S1x64 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out1_4 x0 x1 x2 x3)) -∗ K ⟨⟩))
      ⊢ wp frame (wpE (defs₀ (F := F)) Variants.none c none) E
          (cc1__prelu_cat_kernel i arg1 harg1 arg2 harg2 arg3 harg3 arg4 harg4 arg5 harg5) K := by
  simp only [cc1__prelu_cat_kernel_eq_skeleton]; unfold cc1__prelu_cat_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' memrefs hold their blocks, so the triple applies; the invariant and what
    the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ (grid1.coords t) _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Share1.lean ====
/-
  The second kernel reads ONE array, the aggregated node features, through two windows. The core's unscoped
  buffers are the four distinct arrays behind the five windows, each whole at the full share, beside the rest;
  the pipeline's five arrays are the same four buffers with the shared one held twice, at the left and at the right
  half of its full share. A full share is its two halves, so the two descriptions are interchangeable: at entry the
  shared array is dealt to the two windows, at the exit (an input array is never written, so both windows still
  read the entry contents) the halves are joined again.
-/
import proofs.«169847_j53781580480950_1_alg».proof.Proof.KI.Dat1
import proofs.«169847_j53781580480950_1_alg».proof.Proof.LibSharedFrame
import Idealize.ShloMosaic.Lib.Pipeline.RegionsLoop

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The arrays behind the five windows are four distinct buffers. -/
theorem arrRefs1 : Finset.univ.image (Pipeline.arrRef spec1) = [main_v17, main_v18, main_v19, main_v20].toFinset := by decide

/-- The distinct buffers behind the windows' arrays, one by one. -/
theorem arrBufs1_eq (c : Dev nD) (X : (b : Ref sig .tc) → Buf (Elt F) ((c : Thread nD τ).loc b)) :
    (Pipeline.arrBufs spec1 c X : sProp 𝕄)
      = iprop((((c : Thread nD τ).loc main_v17) ↦{fullShare} X main_v17) ∗ (((c : Thread nD τ).loc main_v18) ↦{fullShare} X main_v18)
          ∗ (((c : Thread nD τ).loc main_v19) ↦{fullShare} X main_v19) ∗ (((c : Thread nD τ).loc main_v20) ↦{fullShare} X main_v20)) := by
  unfold Pipeline.arrBufs
  exact bigSep_eq_bigSepL_of_eq [main_v17, main_v18, main_v19, main_v20] arrRefs1 (by decide) _

/-- The pipeline's arrays, window by window: the shared array twice, at the two halves of the full share. -/
theorem arrays1_eq (c : Dev nD) (G : (w : Fin cfg1.W) → Buf (Elt F) ((cfg1.win w).arr.view.loc (c : Thread nD τ))) :
    ((dat1 V c).arrays G : sProp 𝕄)
      = iprop((((c : Thread nD τ).loc main_v17) ↦{fullShare.left} G 0) ∗ (((c : Thread nD τ).loc main_v17) ↦{fullShare.right} G 1)
          ∗ (((c : Thread nD τ).loc main_v18) ↦{fullShare} G 2) ∗ (((c : Thread nD τ).loc main_v19) ↦{fullShare} G 3)
          ∗ (((c : Thread nD τ).loc main_v20) ↦{fullShare} G 4)) := by
  unfold Dat.arrays
  rw [bigSep_W1, (arr_whole1 0).set_eq_univ, (arr_whole1 2).set_eq_univ, (arr_whole1 3).set_eq_univ,
    (arr_whole1 4).set_eq_univ, share1_0, share1_1, share1_2, share1_3, share1_4]

/-- ENTRY: the core's unscoped buffers at the entry contents are the pipeline's arrays at the proof data's entry
    contents, the shared array's full share dealt in halves to its two windows, beside the unscoped rest. -/
theorem arrays1_of_unscopedBufs (c : Dev nD) :
    (unscopedBufs c (V c) : sProp 𝕄) ⊢ iprop((dat1 V c).arrays ((dat1 V c).arrAt · 0) ∗ Pipeline.unscopedRest spec1 c (V c)) := by
  have hsplit : (unscopedBufs c (V c) : sProp 𝕄) = iprop((Pipeline.arrBufs spec1 c (V c) : sProp 𝕄) ∗ Pipeline.unscopedRest spec1 c (V c)) :=
    Pipeline.unscopedBufs_split₀ cfgs 1 winFacts₀1.arr_unscoped c (V c)
  rw [hsplit, arrBufs1_eq, arrays1_eq]
  refine sep_mono ?_ .rfl
  rw [show (dat1 V c).arrAt 0 0 = V c main_v17 from rfl, show (dat1 V c).arrAt 1 0 = V c main_v17 from rfl,
    show (dat1 V c).arrAt 2 0 = V c main_v18 from rfl, show (dat1 V c).arrAt 3 0 = V c main_v19 from rfl,
    show (dat1 V c).arrAt 4 0 = V c main_v20 from rfl]
  iintro ⟨H17, H18, H19, H20⟩
  have hdeal : (((c : Thread nD τ).loc main_v17) ↦{fullShare} V c main_v17 : sProp 𝕄)
      ⊢ iprop((((c : Thread nD τ).loc main_v17) ↦{fullShare.left} V c main_v17) ∗ (((c : Thread nD τ).loc main_v17) ↦{fullShare.right} V c main_v17)) :=
    (pointsTo_fullShare_halves _ _ _).1
  ihave H := hdeal $$ H17
  icases H with ⟨Ha, Hb⟩
  isplitl [Ha]; · iexact Ha
  isplitl [Hb]; · iexact Hb
  isplitl [H18]; · iexact H18
  isplitl [H19]; · iexact H19
  iexact H20

/-- EXIT: the pipeline's arrays at what it leaves — an input array is never written, so the two windows on the
    shared array both still read its entry contents and their halves join into its full share — beside the unscoped
    rest are the core's unscoped buffers at any contents that have the output array at what the write-backs left and
    agree with the entry contents elsewhere. -/
theorem unscopedBufs_of_arrays1 (c : Dev nD) (V' : (b : Ref sig .tc) → Buf (Elt F) ((c : Thread nD τ).loc b))
    (hout : V' (Pipeline.arrRef spec1 4) = (dat1 V c).arrAt 4 cfg1.N)
    (hrest : ∀ b, b ≠ Pipeline.arrRef spec1 4 → V' b = V c b) :
    iprop((dat1 V c).arrays ((dat1 V c).arrAt · cfg1.N) ∗ Pipeline.unscopedRest spec1 c (V c)) ⊢ (unscopedBufs c V' : sProp 𝕄) := by
  have hsplit : (unscopedBufs c V' : sProp 𝕄) = iprop((Pipeline.arrBufs spec1 c V' : sProp 𝕄) ∗ Pipeline.unscopedRest spec1 c V') :=
    Pipeline.unscopedBufs_split₀ cfgs 1 winFacts₀1.arr_unscoped c V'
  have e0 : (dat1 V c).arrAt 0 cfg1.N = V c main_v17 := ((dat1 V c).arrAt_in 0 rfl _).trans rfl
  have e1 : (dat1 V c).arrAt 1 cfg1.N = V c main_v17 := ((dat1 V c).arrAt_in 1 rfl _).trans rfl
  have e2 : (dat1 V c).arrAt 2 cfg1.N = V c main_v18 := ((dat1 V c).arrAt_in 2 rfl _).trans rfl
  have e3 : (dat1 V c).arrAt 3 cfg1.N = V c main_v19 := ((dat1 V c).arrAt_in 3 rfl _).trans rfl
  have e4 : (dat1 V c).arrAt 4 cfg1.N = V' main_v20 := hout.symm
  rw [hsplit, arrBufs1_eq, arrays1_eq]
  refine sep_mono ?_ (Entails.of_eq ?_)
  · beta_reduce
    rw [e0, e1, e2, e3, e4, hrest main_v17 (by decide), hrest main_v18 (by decide), hrest main_v19 (by decide)]
    have hjoin : iprop((((c : Thread nD τ).loc main_v17) ↦{fullShare.left} V c main_v17) ∗ (((c : Thread nD τ).loc main_v17) ↦{fullShare.right} V c main_v17))
        ⊢ (((c : Thread nD τ).loc main_v17) ↦{fullShare} V c main_v17 : sProp 𝕄) :=
      (pointsTo_fullShare_halves _ _ _).2
    iintro ⟨Ha, Hb, H18, H19, H20⟩
    isplitl [Ha Hb]
    · iapply hjoin
      isplitl [Ha]; · iexact Ha
      iexact Hb
    isplitl [H18]; · iexact H18
    isplitl [H19]; · iexact H19
    iexact H20
  · unfold Pipeline.unscopedRest
    exact bigSep_congr fun b hb => by
      rw [hrest b fun e => (Finset.mem_sdiff.mp hb).2 (Finset.mem_image.mpr ⟨4, Finset.mem_univ _, e.symm⟩)]

end Cert.KernelIdeal.Hand

end
-- ==== Proof.KI.Run.lean ====
/-
  The whole program as one run: the first kernel region, the host operations between the regions, the second
  kernel region, from the launch memory to the return — with the contents of every unscoped buffer named at each
  boundary, so that the final state is known buffer by buffer.

  After the first region the product array holds what the region's write-backs leave and every other buffer its
  launch contents; the host operations then act on that valuation; after the second region the result array holds
  what its write-backs leave and every other buffer what the host operations left. No argument array is written by
  any of the three, so each ends at its launch contents, and the result array ends at the second region's folded
  write-backs.

  The second region reads ONE array (the aggregate) through two input windows. Its entry and exit therefore deal the
  array's full share to the two windows in halves and join the halves again.
-/
import proofs.«169847_j53781580480950_1_alg».proof.Proof.Gen.KernelIdeal.Regions
import proofs.«169847_j53781580480950_1_alg».proof.Proof.KI.Body0
import proofs.«169847_j53781580480950_1_alg».proof.Proof.KI.Body1
import proofs.«169847_j53781580480950_1_alg».proof.Proof.KI.Share1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch (the first region's entry). -/
abbrev W0 : Dev nD → Valuation τ sig (Elt F) := fun c b => (s₀ m ρ).mem ((c : Dev nD), b)
/-- The same read at the core's own references. -/
abbrev E0 : (c : Dev nD) → (b : Ref sig .tc) → Buf (Elt F) ((c : Thread nD τ).loc b) := fun c b => W0 m ρ c b

/-- At the first region's exit: its arrays at what the pipeline leaves, every other buffer as entered. -/
def W1 (c : Dev nD) : Valuation τ sig (Elt F) :=
  Pipeline.withArrays spec0 c (W0 m ρ c) fun w => (dat0 (E0 m ρ) c).arrAt w cfg0.N
theorem W1_arr (c : Dev nD) (w : Fin cfg0.W) :
    W1 m ρ c (Proc.devRef .tc (Pipeline.arrRef spec0 w)) = (dat0 (E0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev E1 : (c : Dev nD) → (b : Ref sig .tc) → Buf (Elt F) ((c : Thread nD τ).loc b) := fun c b => W1 m ρ c b
theorem hF0 (c : Dev nD) (w : Fin cfg0.W) : (dat0 (E0 m ρ) c).arrAt w cfg0.N = E1 m ρ c (Pipeline.arrRef spec0 w) :=
  (W1_arr m ρ c w).symm
theorem hrest0 (c : Dev nD) : ∀ b, b ∉ Finset.univ.image (Pipeline.arrRef spec0) → E1 m ρ c b = E0 m ρ c b :=
  fun b hb => W1_of_ne m ρ c b fun w e => hb (Finset.mem_image.mpr ⟨w, Finset.mem_univ _, e⟩)

/-- After the host operations between the regions (the second region's entry). -/
abbrev W2 : Dev nD → Valuation τ sig (Elt F) := fun c => StableHlo.after hostOps1 (W1 m ρ c)
abbrev E2 : (c : Dev nD) → (b : Ref sig .tc) → Buf (Elt F) ((c : Thread nD τ).loc b) := fun c b => W2 m ρ c b

/-- At the second region's exit: the result array at what the pipeline leaves, every other buffer as entered. -/
def W3 (c : Dev nD) : Valuation τ sig (Elt F) :=
  Function.update (W2 m ρ c) (Proc.devRef .tc main_v20) ((dat1 (E2 m ρ) c).arrAt 4 cfg1.N)
theorem W3_out (c : Dev nD) : W3 m ρ c (Proc.devRef .tc main_v20) = (dat1 (E2 m ρ) c).arrAt 4 cfg1.N := by
  unfold W3; exact Function.update_self _ _ _
theorem W3_of_ne (c : Dev nD) (b : Ref sig .tc) (hb : b ≠ main_v20) :
    W3 m ρ c (Proc.devRef .tc b) = W2 m ρ c (Proc.devRef .tc b) := by
  unfold W3; exact Function.update_of_ne (StableHlo.devRef_ne_of_ne hb) _ _

/-- No host operation between the regions writes `r` when `r` is none of their results. -/
theorem W2_of (c : Dev nD) (r : Ref sig .tc) (h : r ∉ hostOps1_W) : W2 m ρ c r = W1 m ρ c r :=
  StableHlo.after_of_writes_sub hostOps1 _ hostOps1_writes h

/-! ## The arguments end as launched

No host operation and no region writes an argument array: the second region bypasses all six, the host operations
write only their own results, and the first region reads the node features and the weights through input windows
(an input window's array is never changed) and bypasses the rest. -/

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := W3_of_ne m ρ c main_arg0 (by decide)
    _ = W1 m ρ c (Proc.devRef .tc main_arg0) := W2_of m ρ c main_arg0 (by decide)
    _ = W0 m ρ c (Proc.devRef .tc main_arg0) := (W1_arr m ρ c 0).trans (((dat0 (E0 m ρ) c).arrAt_in 0 rfl _).trans (A_eq0 (E0 m ρ) c 0))
    _ = m ((c : Thread nD τ).loc main_arg0) := rfl
theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := W3_of_ne m ρ c main_arg3 (by decide)
    _ = W1 m ρ c (Proc.devRef .tc main_arg3) := W2_of m ρ c main_arg3 (by decide)
    _ = W0 m ρ c (Proc.devRef .tc main_arg3) := (W1_arr m ρ c 1).trans (((dat0 (E0 m ρ) c).arrAt_in 1 rfl _).trans (A_eq0 (E0 m ρ) c 1))
    _ = m ((c : Thread nD τ).loc main_arg3) := rfl
/-- An argument the first region bypasses. -/
theorem W3_bypassed (c : Dev nD) (b : Ref sig .tc) (h3 : b ≠ main_v20) (h2 : b ∉ hostOps1_W)
    (h1 : ∀ w, Pipeline.arrRef spec0 w ≠ b) : W3 m ρ c (Proc.devRef .tc b) = m ((c : Thread nD τ).loc b) :=
  (W3_of_ne m ρ c b h3).trans ((W2_of m ρ c b h2).trans ((W1_of_ne m ρ c b h1).trans rfl))
theorem W3_main_arg1 (c : Dev nD) : W3 m ρ c (Proc.devRef .tc main_arg1) = m ((c : Thread nD τ).loc main_arg1) :=
  W3_bypassed m ρ c main_arg1 (by decide) (by decide) (by decide)
theorem W3_main_arg2 (c : Dev nD) : W3 m ρ c (Proc.devRef .tc main_arg2) = m ((c : Thread nD τ).loc main_arg2) :=
  W3_bypassed m ρ c main_arg2 (by decide) (by decide) (by decide)
theorem W3_main_arg4 (c : Dev nD) : W3 m ρ c (Proc.devRef .tc main_arg4) = m ((c : Thread nD τ).loc main_arg4) :=
  W3_bypassed m ρ c main_arg4 (by decide) (by decide) (by decide)
theorem W3_main_arg5 (c : Dev nD) : W3 m ρ c (Proc.devRef .tc main_arg5) = m ((c : Thread nD τ).loc main_arg5) :=
  W3_bypassed m ρ c main_arg5 (by decide) (by decide) (by decide)

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (E0 m ρ) c
  | ⟨1, _⟩ => fun c => dat1 (E2 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues, at nothing. -/
abbrev R (c : Dev nD) : sProp 𝕄 := iprop((∃ r, prngReg c r) ∗ ∃ W, owes (c : Thread nD τ) (0 : CellTallies nD τ sig Unit) W)
/-- The host operations between the regions as a segment over the unscoped references, `R` riding along. -/
abbrev hseg (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) W R
/-- An unscoped reference of the core is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator register at some state. -/
abbrev Tₙ (c : Dev nD) : sProp 𝕄 := iprop(StableHlo.held (c : Thread nD τ) (Pipeline.ucRefs τ sig) (W3 m ρ c) ∗ ∃ r, prngReg c r)

/-! ## The regions as segments -/

set_option backward.isDefEq.respectTransparency.types false in
/-- The first region: entered from every unscoped buffer at the launch contents, left at `W1`. Its arrays are
    distinct buffers, split out of the unscoped buffers at the full share and put back at the exit contents. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (E0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (E0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (E0 m ρ c) (E1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region: entered from every unscoped buffer at `W2`, left at `W3`. Two of its input windows are on
    one array, so its arrays are split out of the unscoped buffers with that array's full share dealt to the two
    windows in halves, and put back with the halves joined. -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (body_obligation1 (E2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E2 m ρ c)
  hentry c := by
    rw [Pipeline.ownSems0_none]
    have hsplit := arrays1_of_unscopedBufs (E2 m ρ) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((pdats m ρ 1 c).arrays ((pdats m ρ 1 c).arrAt · cfg1.N)
          ∗ Pipeline.unscopedRest (Ix := Unit) (Name := ℕ) (U := UR sig nD τ) (Lvl := ℕ) spec1 c (E2 m ρ c))
        ⊢ (unscopedBufs c (fun b => W3 m ρ c b) : sProp 𝕄) :=
      unscopedBufs_of_arrays1 (E2 m ρ) c (fun b => W3 m ρ c b) (W3_out m ρ c) (fun b hb => W3_of_ne m ρ c b hb)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

/-- The program's three segments in order. -/
abbrev items : List (Pipeline.Seg (pcfgs (F := F)) adm (pdats m ρ) () defs₀ 𝒱₀ L lv) :=
  [ .region (reg0 m ρ),
    .host (hseg (W1 m ρ)),
    .region (reg1 m ρ) ]
/-- The program IS the run of the segments. -/
theorem main_run (c : Dev nD) : main (F := F) c = Pipeline.Seg.run (items m ρ) :=
  main_segs adm (pdats m ρ) () 𝒱₀ L lv (hseg (W1 m ρ)) (reg0 m ρ) (reg1 m ρ) rfl c

set_option backward.isDefEq.respectTransparency.types false in
/-- THE RUN, at any `F`: from any memory with zero counters every weakly fair execution of the program terminates,
    nothing faulting, and the final memory holds every unscoped buffer of every core at the last boundary's
    contents `W3`. -/
theorem run : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (items m ρ)
    (fun c Q => by rw [main_run m ρ c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

/-- The frame: every argument array ends at its launch contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c),
     (h c _ (mem_uc main_arg4 (by decide))).trans (W3_main_arg4 m ρ c),
     (h c _ (mem_uc main_arg5 (by decide))).trans (W3_main_arg5 m ρ c)⟩) (run m ρ)

/-- The run with the result array named: it ends at what the second region's write-backs leave. -/
theorem run_result : θ_run defs (onTc (τ := τ) (main (F := F))) ⟨m, fun _ => 0, ρ⟩ (fun r => ∀ c : Dev nD,
      r.2.mem ((c.tc : Thread nD τ).loc main_v20) = (dat1 (E2 m ρ) c).arrAt 4 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_v20 (by decide))).trans (W3_out m ρ c),
     (h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c),
     (h c _ (mem_uc main_arg4 (by decide))).trans (W3_main_arg4 m ρ c),
     (h c _ (mem_uc main_arg5 (by decide))).trans (W3_main_arg5 m ρ c)⟩) (run m ρ)

end Cert.KernelIdeal.Hand

end
-- ==== Proof.KI.Host1.lean ====
/-
  The host operations between the two kernel regions, read at the three arrays the second region takes.

  The edge list's two rows are cut out and flattened; a negative source index is wrapped around by the number of
  nodes; the product's rows are gathered at the sources, each scaled by its edge's weight, and summed into the
  destinations' rows of an array of zeros. That is one function `aggK` of the product array and the two edge
  arrays, and it is never opened. The bias and the slope vectors are re-laid as one-row matrices.
-/
import proofs.«169847_j53781580480950_1_alg».proof.Proof.KI.Run
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The gather-scale-sum stage as one function of the product array `h`, the edge list `x1` and the edge weights `x2`. -/
def aggK (h : (⟨S100000x64, .f32⟩ : BufTy).Contents (Elt F)) (x1 : (⟨S2x1200000, .i32⟩ : BufTy).Contents (Elt F))
    (x2 : (⟨S1200000, .f32⟩ : BufTy).Contents (Elt F)) : (⟨S100000x64, .f32⟩ : BufTy).Contents (Elt F) :=
  let src : (⟨S1200000, .i32⟩ : BufTy).Contents (Elt F) :=
    shapeCast _ (extractStridedSlice S1x1200000 ![0, 0] x1 slices_S2x1200000_S1x1200000_0_0) shapeCasts_S1x1200000_S1200000
  let dst : (⟨S1200000, .i32⟩ : BufTy).Contents (Elt F) :=
    shapeCast _ (extractStridedSlice S1x1200000 ![1, 0] x1 slices_S2x1200000_S1x1200000_1_0) shapeCasts_S1x1200000_S1200000
  let zeroI : (⟨S1200000, .i32⟩ : BufTy).Contents (Elt F) := broadcastInDim S1200000 ![] bcast_S_S1200000 (constantI S_ 32 0#32)
  let nodes : (⟨S1200000, .i32⟩ : BufTy).Contents (Elt F) := broadcastInDim S1200000 ![] bcast_S_S1200000 (constantI S_ 32 100000#32)
  let wrapped : (⟨S1200000, .i32⟩ : BufTy).Contents (Elt F) := select (cmpi .slt src zeroI) (addi src nodes) src
  Host.scatterAdd scatter_S100000x64_S1200000x1_S1200000x64_1_0_0_1
    (broadcastInDim S100000x64 ![] bcast_S_S100000x64 (constant S_ .f32 0x00000000#32))
    (broadcastInDim S1200000x1 ![0] bcast_S1200000_S1200000x1_0 dst)
    (mulf (Host.gather gather_S100000x64_S1200000x1_S1200000x64_1_0_n_n_0_1_164 h (broadcastInDim S1200000x1 ![0] bcast_S1200000_S1200000x1_0 wrapped))
      (broadcastInDim S1200000x64 ![0, 1] bcast_S1200000x1_S1200000x64_0_1 (broadcastInDim S1200000x1 ![0] bcast_S1200000_S1200000x1_0 x2)))

variable (m : (ℓ : Loc nD τ sig) → Buf (Elt F) ℓ) (ρ : Dev nD → PrngReg)

/-- The aggregate the second region reads is `aggK` of what the first region left in the product array and of the
    edge arrays as the first region left them. -/
theorem W2_main_v17 (c : Dev nD) :
    (W2 m ρ c (Proc.devRef .tc main_v17) : (⟨S100000x64, .f32⟩ : BufTy).Contents (Elt F))
      = aggK (W1 m ρ c (Proc.devRef .tc main_v0)) (W1 m ρ c (Proc.devRef .tc main_arg1)) (W1 m ρ c (Proc.devRef .tc main_arg2)) := by
  show StableHlo.after hostOps1 (W1 m ρ c) (Proc.devRef .tc main_v17) = _
  after_results
  rfl

/-- The bias row the second region reads is the bias vector re-laid as one row. -/
theorem W2_main_v18 (c : Dev nD) :
    (W2 m ρ c (Proc.devRef .tc main_v18) : (⟨S1x64, .f32⟩ : BufTy).Contents (Elt F))
      = shapeCast _ (W1 m ρ c (Proc.devRef .tc main_arg4) : (⟨S64, .f32⟩ : BufTy).Contents (Elt F)) shapeCasts_S64_S1x64 := by
  show StableHlo.after hostOps1 (W1 m ρ c) (Proc.devRef .tc main_v18) = _
  after_results
  rfl

/-- The slope row the second region reads is the slope vector re-laid as one row. -/
theorem W2_main_v19 (c : Dev nD) :
    (W2 m ρ c (Proc.devRef .tc main_v19) : (⟨S1x64, .f32⟩ : BufTy).Contents (Elt F))
      = shapeCast _ (W1 m ρ c (Proc.devRef .tc main_arg5) : (⟨S64, .f32⟩ : BufTy).Contents (Elt F)) shapeCasts_S64_S1x64 := by
  show StableHlo.after hostOps1 (W1 m ρ c) (Proc.devRef .tc main_v19) = _
  after_results
  rfl

end Cert.KernelIdeal.Hand

end
-- ==== Proof.Spec.lean ====
/-
  The layer as plain functions of arrays, index by index, over the extended reals.

  A node's feature row is multiplied by the weight matrix (`hmat`); the rows are then gathered along the edges,
  scaled by the edge weights and summed into their destination nodes (that part is the same list of host operations
  in both programs, and is never opened here); finally every entry of the aggregate gets the bias of its channel
  and the activation `act` (the entry itself when positive, the channel's slope times the entry otherwise), and the
  lower half of the nodes is laid to the right of the upper half (`catAct`): entry (p, q) of the result comes
  from node p and channel q when q < 64, and from node p + 50000 and channel q - 64 otherwise.
-/
import Idealize.ShloMosaic.PureOps.Ideal
import Idealize.ShloMosaic.Lib.ValueIdx

noncomputable section

namespace Cert.Spec

open Idealize.ShloMosaic Idealize.ShloMosaic.ValueIdx
open scoped BigOperators

/-- The activation of one entry `g` with slope `a`: `g` when `g > 0`, else `a * g`. -/
def act (g a : EReal) : EReal :=
  Scalar.select (FloatOps.cmpf (F := Ideal) (φ := .f32) .ogt g (Ideal.ofBits .f32 0x00000000#32)) g (a * g)

/-- The product of the node features and the weight matrix: entry (n, d) is the sum over k of x (n, k) * w (k, d). -/
def hmat (x : (⟨2, ![100000, 256]⟩ : Shape).Idx → EReal) (w : (⟨2, ![256, 64]⟩ : Shape).Idx → EReal) :
    (⟨2, ![100000, 64]⟩ : Shape).Idx → EReal :=
  fun j => ∑ k : Fin 256, x (ix2 (j 0) k) * w (ix2 k (j 1))

theorem hmat_ix2 (x : (⟨2, ![100000, 256]⟩ : Shape).Idx → EReal) (w : (⟨2, ![256, 64]⟩ : Shape).Idx → EReal)
    (n : Fin 100000) (d : Fin 64) : hmat x w (ix2 n d) = ∑ k : Fin 256, x (ix2 n k) * w (ix2 k d) := rfl

/-- Bias, activation, and the two halves of the nodes side by side, with the bias and the slope given as one-row
    matrices: entry (p, q) is `act (agg (p, q) + b (0, q)) (a (0, q))` for q < 64 and
    `act (agg (p + 50000, q - 64) + b (0, q - 64)) (a (0, q - 64))` for q ≥ 64. -/
def catAct (agg : (⟨2, ![100000, 64]⟩ : Shape).Idx → EReal) (b a : (⟨2, ![1, 64]⟩ : Shape).Idx → EReal) :
    (⟨2, ![50000, 128]⟩ : Shape).Idx → EReal :=
  fun j =>
    if h : (j 1).val < 64 then
      act (agg (ix2 (⟨(j 0).val, by have := idx2_lt0 j; omega⟩ : Fin 100000) (⟨(j 1).val, h⟩ : Fin 64))
            + b (ix2 (0 : Fin 1) (⟨(j 1).val, h⟩ : Fin 64)))
          (a (ix2 (0 : Fin 1) (⟨(j 1).val, h⟩ : Fin 64)))
    else
      act (agg (ix2 (⟨(j 0).val + 50000, by have := idx2_lt0 j; omega⟩ : Fin 100000)
              (⟨(j 1).val - 64, by have := idx2_lt1 j; omega⟩ : Fin 64))
            + b (ix2 (0 : Fin 1) (⟨(j 1).val - 64, by have := idx2_lt1 j; omega⟩ : Fin 64)))
          (a (ix2 (0 : Fin 1) (⟨(j 1).val - 64, by have := idx2_lt1 j; omega⟩ : Fin 64)))

/-- `catAct` at a left-half entry. -/
theorem catAct_left (agg : (⟨2, ![100000, 64]⟩ : Shape).Idx → EReal) (b a : (⟨2, ![1, 64]⟩ : Shape).Idx → EReal)
    (p : Fin 50000) (q : Fin 128) (h : q.val < 64) :
    catAct agg b a (ix2 p q)
      = act (agg (ix2 (⟨p.val, by omega⟩ : Fin 100000) (⟨q.val, h⟩ : Fin 64)) + b (ix2 (0 : Fin 1) (⟨q.val, h⟩ : Fin 64)))
          (a (ix2 (0 : Fin 1) (⟨q.val, h⟩ : Fin 64))) := by
  unfold catAct
  rw [dif_pos (show ((ix2 p q : (⟨2, ![50000, 128]⟩ : Shape).Idx) 1).val < 64 from h)]

/-- `catAct` at a right-half entry. -/
theorem catAct_right (agg : (⟨2, ![100000, 64]⟩ : Shape).Idx → EReal) (b a : (⟨2, ![1, 64]⟩ : Shape).Idx → EReal)
    (p : Fin 50000) (q : Fin 128) (h : ¬ q.val < 64) :
    catAct agg b a (ix2 p q)
      = act (agg (ix2 (⟨p.val + 50000, by omega⟩ : Fin 100000) (⟨q.val - 64, by omega⟩ : Fin 64))
              + b (ix2 (0 : Fin 1) (⟨q.val - 64, by omega⟩ : Fin 64)))
          (a (ix2 (0 : Fin 1) (⟨q.val - 64, by omega⟩ : Fin 64))) := by
  unfold catAct
  rw [dif_neg (show ¬ ((ix2 p q : (⟨2, ![50000, 128]⟩ : Shape).Idx) 1).val < 64 from h)]

end Cert.Spec

end
-- ==== Proof.LibPlainMatmul.lean ====
/-
  Two families of small facts about arrays read at coordinates, over literal rank-2 and rank-3 shapes of any sizes.

  * A plain rows-by-columns matrix product — the left operand contracted on its columns, the right on its rows, no
    batch axis — into the zero accumulator, over the extended reals: at `(p, q)` it is the sum over the shared axis
    of the products of row `p` of the left operand and column `q` of the right. A product record of any program
    with these dimension numbers unifies with `plainDims` by unfolding, so the lemma applies to it through
    `refine (matmul_zero_plain _ _ _ p q).trans ?_`.
  * Unit axes added by a shape cast (`[a, c] → [a, 1, c]`, `[c] → [1, 1, c]`) and broadcasts along one or two unit
    axes (`[a, 1, c]`, `[1, b, c]`, `[1, 1, c] → [a, b, c]`), each read at explicit coordinates: a unit axis
    contributes nothing to the row-major position, and a broadcast reads its operand at coordinate zero of the
    axes it spreads.
-/
import Idealize.ShloMosaic.Lib.ValueIdx
import Idealize.ShloMosaic.Lib.Pipeline.Value
import Idealize.ShloMosaic.Lib.ValueLayout
import Idealize.ShloMosaic.PureOps.Ideal.Laws

noncomputable section

namespace Cert.LibPlainMatmul

open Idealize.ShloMosaic Idealize.ShloMosaic.ValueIdx
open scoped BigOperators

/-! ## A rows-by-columns product into the zero accumulator -/

/-- The dimension numbers of a plain m × k by k × n product: the left operand contracted on its columns, the right on
    its rows, no batch axis. -/
abbrev plainDims {m k n : Nat} (wf : DotDims.WF (⟨2, ![m, k]⟩ : Shape) ⟨2, ![k, n]⟩ ⟨2, ![m, n]⟩ [1] [0] [0] [1] [] []) :
    DotDims ⟨2, ![m, k]⟩ ⟨2, ![k, n]⟩ ⟨2, ![m, n]⟩ := ⟨[1], [0], [0], [1], [], [], wf⟩

section PlainDims
variable {m k n : Nat} (wf : DotDims.WF (⟨2, ![m, k]⟩ : Shape) ⟨2, ![k, n]⟩ ⟨2, ![m, n]⟩ [1] [0] [0] [1] [] [])

/-- The left operand is read in the result's row … -/
theorem plain_lhs_row (j : (⟨2, ![m, n]⟩ : Shape).Idx) (c : (plainDims wf).contr.Idx) :
    ((plainDims wf).lhsIdx j c 0).val = (j 0).val := by
  unfold DotDims.lhsIdx
  rw [dif_neg (show ¬(0 : Fin (⟨2, ![m, k]⟩ : Shape).rank) ∈ (plainDims wf).lhsBatch from List.not_mem_nil),
    dif_pos (show (0 : Fin (⟨2, ![m, k]⟩ : Shape).rank) ∈ (plainDims wf).lhsNonContracting from List.mem_singleton.mpr rfl)]
  rfl

/-- … and the right operand in the result's column. -/
theorem plain_rhs_col (j : (⟨2, ![m, n]⟩ : Shape).Idx) (c : (plainDims wf).contr.Idx) :
    ((plainDims wf).rhsIdx j c 1).val = (j 1).val := by
  unfold DotDims.rhsIdx
  rw [dif_neg (show ¬(1 : Fin (⟨2, ![k, n]⟩ : Shape).rank) ∈ (plainDims wf).rhsBatch from List.not_mem_nil),
    dif_pos (show (1 : Fin (⟨2, ![k, n]⟩ : Shape).rank) ∈ (plainDims wf).rhsNonContracting from List.mem_singleton.mpr rfl)]
  rfl

/-- Such a product into the zero accumulator reads, at (p, q), the sum over the shared axis of the products of row p
    of the left operand and column q of the right. -/
theorem matmul_zero_plain {φ₁ φ₂ : FTy} (l : FVec Ideal ⟨2, ![m, k]⟩ φ₁) (r : FVec Ideal ⟨2, ![k, n]⟩ φ₂)
    (p : Fin m) (q : Fin n) :
    FloatOps.matmul (plainDims wf) none l r (constant (F := Ideal) ⟨2, ![m, n]⟩ .f32 0x00000000#32) (ix2 p q)
      = ∑ c : Fin k, l (ix2 p c) * r (ix2 c q) := by
  rw [Ideal.matmul_constant_zero_apply, ← Equiv.sum_comp (contrEquiv1 (plainDims wf) k rfl rfl).symm]
  refine Finset.sum_congr rfl fun c _ => ?_
  have hc := contrEquiv1_symm_val (plainDims wf) k rfl rfl c
  have el : (plainDims wf).lhsIdx (ix2 p q) ((contrEquiv1 (plainDims wf) k rfl rfl).symm c) = ix2 p c :=
    funext fun a => Fin.ext (by
      match a with
      | ⟨0, _⟩ => exact plain_lhs_row wf _ _
      | ⟨1, _⟩ => exact ((plainDims wf).lhsIdx_val_of_single rfl _ _).trans hc)
  have er : (plainDims wf).rhsIdx (ix2 p q) ((contrEquiv1 (plainDims wf) k rfl rfl).symm c) = ix2 c q :=
    funext fun a => Fin.ext (by
      match a with
      | ⟨0, _⟩ => exact ((plainDims wf).rhsIdx_val_of_single rfl _ _).trans hc
      | ⟨1, _⟩ => exact plain_rhs_col wf _ _)
  rw [el, er]

end PlainDims

/-! ## Unit axes added, and broadcasts along an axis, read at coordinates -/

section Layout
variable {α : Type}

/-- An [a, c] array cast to [a, 1, c] reads, at (p, z, s), the operand at (p, s). -/
theorem shapeCast_ac_a1c_apply {a c : ℕ} (x : (⟨2, ![a, c]⟩ : Shape).Idx → α)
    (h : (⟨2, ![a, c]⟩ : Shape).ShapeCasts ⟨3, ![a, 1, c]⟩) (p : Fin a) (z : Fin 1) (s : Fin c) :
    shapeCast ⟨3, ![a, 1, c]⟩ x h (ix3 p z s) = x (ix2 p s) :=
  shapeCast_apply x h _ _ (by
    have hz : z.val = 0 := by omega
    rw [Shape.rowMajor_val_three, Shape.rowMajor_val_two]
    show p.val * c + s.val = (p.val * 1 + z.val) * c + s.val
    rw [hz, Nat.mul_one, Nat.add_zero])

/-- A [c] array cast to [1, 1, c] reads, at (y, z, s), the operand at s. -/
theorem shapeCast_c_11c_apply {c : ℕ} (x : (⟨1, ![c]⟩ : Shape).Idx → α)
    (h : (⟨1, ![c]⟩ : Shape).ShapeCasts ⟨3, ![1, 1, c]⟩) (y z : Fin 1) (s : Fin c) :
    shapeCast ⟨3, ![1, 1, c]⟩ x h (ix3 y z s) = x (ix1 s) :=
  shapeCast_apply x h _ _ (by
    have hy : y.val = 0 := by omega
    have hz : z.val = 0 := by omega
    rw [Shape.rowMajor_val_three, Shape.rowMajor_val_one]
    show s.val = (y.val * 1 + z.val) * c + s.val
    simp only [hy, hz, Nat.zero_mul, Nat.zero_add, Nat.mul_one])

/-- An [a, 1, c] array broadcast to [a, b, c] reads, at (p, q, s), the operand at (p, 0, s). -/
theorem broadcastTo_a1c_abc_apply {a b c : ℕ} (x : (⟨3, ![a, 1, c]⟩ : Shape).Idx → α)
    (h : (⟨3, ![a, 1, c]⟩ : Shape).Broadcasts ⟨3, ![a, b, c]⟩) (p : Fin a) (q : Fin b) (s : Fin c) :
    broadcastTo ⟨3, ![a, b, c]⟩ x h (ix3 p q s) = x (ix3 p (0 : Fin 1) s) := by
  refine broadcastTo_apply x h (ix3 p q s) (ix3 p (0 : Fin 1) s) fun ax => ?_
  match ax with
  | ⟨0, _⟩ =>
    show p.val = if a = 1 then 0 else p.val
    split
    · have := p.isLt; omega
    · rfl
  | ⟨1, _⟩ => rfl
  | ⟨2, _⟩ =>
    show s.val = if c = 1 then 0 else s.val
    split
    · have := s.isLt; omega
    · rfl

/-- A [1, b, c] array broadcast to [a, b, c] reads, at (p, q, s), the operand at (0, q, s). -/
theorem broadcastTo_1bc_abc_apply {a b c : ℕ} (x : (⟨3, ![1, b, c]⟩ : Shape).Idx → α)
    (h : (⟨3, ![1, b, c]⟩ : Shape).Broadcasts ⟨3, ![a, b, c]⟩) (p : Fin a) (q : Fin b) (s : Fin c) :
    broadcastTo ⟨3, ![a, b, c]⟩ x h (ix3 p q s) = x (ix3 (0 : Fin 1) q s) := by
  refine broadcastTo_apply x h (ix3 p q s) (ix3 (0 : Fin 1) q s) fun ax => ?_
  match ax with
  | ⟨0, _⟩ => rfl
  | ⟨1, _⟩ =>
    show q.val = if b = 1 then 0 else q.val
    split
    · have := q.isLt; omega
    · rfl
  | ⟨2, _⟩ =>
    show s.val = if c = 1 then 0 else s.val
    split
    · have := s.isLt; omega
    · rfl

/-- A [1, 1, c] array broadcast to [a, b, c] reads, at (p, q, s), the operand at (0, 0, s). -/
theorem broadcastTo_11c_abc_apply {a b c : ℕ} (x : (⟨3, ![1, 1, c]⟩ : Shape).Idx → α)
    (h : (⟨3, ![1, 1, c]⟩ : Shape).Broadcasts ⟨3, ![a, b, c]⟩) (p : Fin a) (q : Fin b) (s : Fin c) :
    broadcastTo ⟨3, ![a, b, c]⟩ x h (ix3 p q s) = x (ix3 (0 : Fin 1) (0 : Fin 1) s) := by
  refine broadcastTo_apply x h (ix3 p q s) (ix3 (0 : Fin 1) (0 : Fin 1) s) fun ax => ?_
  match ax with
  | ⟨0, _⟩ => rfl
  | ⟨1, _⟩ => rfl
  | ⟨2, _⟩ =>
    show s.val = if c = 1 then 0 else s.val
    split
    · have := s.isLt; omega
    · rfl

end Layout

end Cert.LibPlainMatmul

end
-- ==== Proof.KI.Val0.lean ====
/-
  The value the first pipeline leaves in its output array, over the extended reals: the product of the node
  features and the weight matrix.

  Point t of the grid is handed rows 5000 t … 5000 t + 4999 of the features and the whole weight matrix, and writes
  back rows 5000 t … 5000 t + 4999 of the output. Rounding to the narrower format is the identity on the extended
  reals, and a product into the zero accumulator is the plain sum of products over the shared axis; so entry (p, q)
  of what point t writes back is the sum over k of feature (5000 t + p, k) times weight (k, q): block t of the one
  function `Cert.Spec.hmat` of the two arrays. Row r of the output lies in the block of point r / 5000, so the
  twenty blocks cover the array and it ends holding that function.
-/
import proofs.«169847_j53781580480950_1_alg».proof.Proof.KI.Body0
import proofs.«169847_j53781580480950_1_alg».proof.Proof.Spec
import proofs.«169847_j53781580480950_1_alg».proof.Proof.LibPlainMatmul
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)
open scoped BigOperators

-- the TensorCore's buffer contents when the region is entered, over the extended reals
variable (V : (c : Dev nD) → (b : Ref sig .tc) → Buf (Elt Ideal) ((c : Thread nD τ).loc b))

/-- The body's accesses start at the origin of their buffers. -/
theorem zero_offsets0 : (![0, 0] : Fin 2 → Nat) = fun _ => 0 := funext fun a => by fin_cases a <;> rfl

/-! ## The body's product at an entry -/

/-- Entry (p, q) of the body's product of a block `x0` of features and the weights `x1`: the sum over the shared
    axis of row p of the one times column q of the other (rounding to the narrower format changes nothing over the
    extended reals, and the accumulator starts at zero). -/
theorem pay0_apply (x0 : Vec Ideal S5000x256 .f32) (x1 : Vec Ideal S256x64 .f32) (p : Fin 5000) (q : Fin 64) :
    k0_pay1 x0 x1 (ix2 p q) = ∑ k : Fin 256, x0 (ix2 p k) * x1 (ix2 k q) := by
  unfold k0_pay1
  refine (Cert.LibPlainMatmul.matmul_zero_plain _ _ _ p q).trans ?_
  rfl

/-! ## Where the blocks sit in their arrays -/

/-- The block indices of the three windows at every point: the features and the output move down one block of rows
    per point, the weights stay. -/
theorem index_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Entry (p, k) of the feature block at point t is entry (5000 t + p, k) of the feature array. -/
theorem iblk0_x_apply (c : Dev nD) (t : Fin cfg0.N) (p : Fin 5000) (k : Fin 256) (n : Fin 100000)
    (hn : n.val = t.val * 5000 + p.val) :
    (iblk0 V c 0 t : Vec Ideal S5000x256 .f32) (ix2 p k) = (V c main_arg0 : S100000x256.Idx → EReal) (ix2 n k) := by
  obtain ⟨e0, e1, -⟩ := index_facts0 t
  unfold iblk0
  rw [View.read_apply]
  show V c main_arg0 _ = V c main_arg0 _
  refine congrArg _ (funext fun a => Fin.ext ?_)
  match a with
  | ⟨0, _⟩ => show win0_0.index t (0 : Fin 2) * 5000 + 1 * p.val = n.val; rw [e0, hn]; omega
  | ⟨1, _⟩ => show win0_0.index t (1 : Fin 2) * 256 + 1 * k.val = k.val; rw [e1]; omega

/-- The weight block at every point is the weight array. -/
theorem iblk0_w_apply (c : Dev nD) (t : Fin cfg0.N) (k : Fin 256) (q : Fin 64) :
    (iblk0 V c 1 t : Vec Ideal S256x64 .f32) (ix2 k q) = (V c main_arg3 : S256x64.Idx → EReal) (ix2 k q) := by
  obtain ⟨-, -, e2, e3, -⟩ := index_facts0 t
  unfold iblk0
  rw [View.read_apply]
  show V c main_arg3 _ = V c main_arg3 _
  refine congrArg _ (funext fun a => Fin.ext ?_)
  match a with
  | ⟨0, _⟩ => show win0_1.index t (0 : Fin 2) * 256 + 1 * k.val = k.val; rw [e2]; omega
  | ⟨1, _⟩ => show win0_1.index t (1 : Fin 2) * 64 + 1 * q.val = q.val; rw [e3]; omega

/-- What point t's product holds at an entry of its block is the product of the two arrays at the entry's place in
    the output array. -/
theorem point0_eq (c : Dev nD) (t : Fin cfg0.N) (j : S5000x64.Idx) :
    k0_pay1 (iblk0 V c 0 t) (iblk0 V c 1 t) j
      = Cert.Spec.hmat (V c main_arg0) (V c main_arg3) (((cfg0.win 2).blk t).view.emb j) := by
  obtain ⟨p, q, rfl⟩ : ∃ (p : Fin 5000) (q : Fin 64), j = ix2 p q := ⟨j 0, j 1, eq_ix2 j⟩
  obtain ⟨-, -, -, -, e4, e5⟩ := index_facts0 t
  have hN : grid0.N = 20 := N_0
  have ht : t.val < 20 := hN ▸ t.isLt
  have hn : t.val * 5000 + p.val < 100000 := by have := p.isLt; omega
  have he : ((cfg0.win 2).blk t).view.emb (ix2 p q) = (ix2 (⟨t.val * 5000 + p.val, hn⟩ : Fin 100000) q : S100000x64.Idx) :=
    funext fun a => Fin.ext (by
      match a with
      | ⟨0, _⟩ => show win0_2.index t (0 : Fin 2) * 5000 + 1 * p.val = t.val * 5000 + p.val; rw [e4]; omega
      | ⟨1, _⟩ => show win0_2.index t (1 : Fin 2) * 64 + 1 * q.val = q.val; rw [e5]; omega)
  rw [he, Cert.Spec.hmat_ix2]
  refine (pay0_apply _ _ p q).trans ?_
  refine Finset.sum_congr rfl fun k _ => ?_
  exact congrArg₂ (· * ·) (iblk0_x_apply V c t p k _ rfl) (iblk0_w_apply V c t k q)

/-! ## From the blocks to the array -/

/-- What point t writes back is block t of the product of the two arrays. -/
theorem flushed0_eq (c : Dev nD) (t : Fin cfg0.N) :
    (dat0 V c).flushed 2 t
      = ((cfg0.win 2).blk t).view.read (Elt Ideal) (Cert.Spec.hmat (V c main_arg0) (V c main_arg3)) := by
  show (cfg0.win 2).cut (grid0.coords t) ((dat0 V c).after 2 t) = _
  rw [after0_2]
  unfold out0_2
  rw [View.canon_unit_zero zero_offsets0]
  simp only [View.ld_unit_zero (S := S5000x256) zero_offsets0, View.ld_unit_zero (S := S256x64) zero_offsets0]
  funext j
  exact point0_eq V c t j

/-- An index of the output array is in point t's block when each coordinate is in the block's range on its axis. -/
theorem mem_blk0 (t : Fin cfg0.N) (i : S100000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v0).slice (win0_2.rect t)).set ↔ _
  rw [View.set_slice_whole, Rect.mem_set_unit]
  exact Iff.rfl

/-- Row r of the output array lies in the block of point r / 5000, which is written back. -/
theorem cover0 (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  have hN : grid0.N = 20 := N_0
  obtain ⟨t, ht⟩ : ∃ t : Fin cfg0.N, t.val = (i 0).val / 5000 := ⟨⟨(i 0).val / 5000, by show (i 0).val / 5000 < grid0.N; rw [hN]; omega⟩, rfl⟩
  obtain ⟨-, -, -, -, e4, e5⟩ := index_facts0 t
  refine ⟨t, flush0_2 t, ?_⟩
  rw [mem_blk0]
  intro a
  match a with
  | ⟨0, _⟩ =>
    show win0_2.index t (0 : Fin 2) * 5000 ≤ (i 0).val ∧ (i 0).val < win0_2.index t (0 : Fin 2) * 5000 + 5000
    rw [e4, ht]; omega
  | ⟨1, _⟩ =>
    show win0_2.index t (1 : Fin 2) * 64 ≤ (i 1).val ∧ (i 1).val < win0_2.index t (1 : Fin 2) * 64 + 64
    rw [e5]; omega

/-- The output array after the pipeline's twenty points: the product of the features and the weights as the region
    found them. -/
theorem arr0_final (c : Dev nD) :
    ((dat0 (F := Ideal) V c).arrAt 2 cfg0.N : S100000x64.Idx → EReal) = Cert.Spec.hmat (V c main_arg0) (V c main_arg3) :=
  (dat0 V c).arrAt_eq_of_cover 2 (Cert.Spec.hmat (V c main_arg0) (V c main_arg3)) (fun t _ => flushed0_eq V c t) cover0

end Cert.KernelIdeal.Hand

end
-- ==== Proof.KI.Val1.lean ====
/-
  The value the second pipeline leaves in its output array, over the extended reals: bias, activation, and the two
  halves of the nodes side by side.

  Point t of the grid is handed rows 5000 t … 5000 t + 4999 of the aggregate through its first window, rows
  50000 + 5000 t … 50000 + 5000 t + 4999 of the same array through its second, and the whole bias and slope rows;
  it writes back rows 5000 t … 5000 t + 4999 of the output. Entry (p, q) of what the body stores comes from the first
  block at column q when q < 64 and from the second block at column q - 64 otherwise; either way it is the block's
  entry plus the bias of its column, kept when positive and multiplied by the column's slope otherwise. So what point
  t writes back is block t of the one function `Cert.Spec.catAct` of the three arrays; row r of the output lies in
  the block of point r / 5000, so the ten blocks cover the array and it ends holding that function.
-/
import proofs.«169847_j53781580480950_1_alg».proof.Proof.KI.Dat1
import proofs.«169847_j53781580480950_1_alg».proof.Proof.Spec
import Idealize.ShloMosaic.Lib.Pipeline.Value
import Idealize.ShloMosaic.Lib.ValueLayout
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)
open scoped BigOperators

-- the TensorCore's buffer contents when the region is entered, over the extended reals
variable (V : (c : Dev nD) → (b : Ref sig .tc) → Buf (Elt Ideal) ((c : Thread nD τ).loc b))

/-- The body's accesses start at the origin of their buffers. -/
theorem zero_offsets1 : (![0, 0] : Fin 2 → Nat) = fun _ => 0 := funext fun a => by fin_cases a <;> rfl

/-! ## The body's stored value at an entry -/

/-- One half of the stored value at an entry: a block `x` with the bias row `b` added along the rows, compared
    with zero, kept where positive and multiplied by the slope row `a` elsewhere, is the activation of the block's
    entry plus its column's bias with its column's slope. -/
theorem act_entry (b a : Vec Ideal S1x64 .f32) (x : Vec Ideal S5000x64 .f32)
    (hs1 : S1x64.ShapeCasts S1x64) (hs : S5000x64.ShapeCasts S5000x64) (hb : S1x64.Broadcasts S5000x64)
    (p : Fin 5000) (q : Fin 64) :
    select (cmpf (F := Ideal) (φ := .f32) .ogt
          (addf (F := Ideal) (φ := .f32) (shapeCast S5000x64 x hs) (broadcastTo S5000x64 (shapeCast S1x64 b hs1) hb))
          (broadcast S5000x64 (Scalar.ofBits (F := Ideal) .f32 0x00000000#32)))
        (addf (F := Ideal) (φ := .f32) (shapeCast S5000x64 x hs) (broadcastTo S5000x64 (shapeCast S1x64 b hs1) hb))
        (mulf (F := Ideal) (φ := .f32) (broadcastTo S5000x64 (shapeCast S1x64 a hs1) hb)
          (addf (F := Ideal) (φ := .f32) (shapeCast S5000x64 x hs) (broadcastTo S5000x64 (shapeCast S1x64 b hs1) hb))) (ix2 p q)
      = Cert.Spec.act (x (ix2 p q) + b (ix2 (0 : Fin 1) q)) (a (ix2 (0 : Fin 1) q)) := by
  rw [shapeCast_self, shapeCast_self, shapeCast_self]
  rw [select_apply, cmpf_apply, mulf_apply, addf_apply, broadcast_apply, broadcastTo_1b_ab_apply, broadcastTo_1b_ab_apply]
  rfl

/-- Two blocks of 64 columns laid side by side, read in the left half, … -/
theorem cat_left (y1 y2 : S5000x64.Idx → EReal) (hc : Shape.Concatenates [S5000x64, S5000x64] S5000x128 1)
    (p : Fin 5000) (q : Fin 128) (h : q.val < 64) :
    concatenate S5000x128 1 [⟨S5000x64, y1⟩, ⟨S5000x64, y2⟩] hc (ix2 p q) = y1 (ix2 p (⟨q.val, h⟩ : Fin 64)) :=
  concatenate_pair_apply_left (t := S5000x128) (s₁ := S5000x64) (s₂ := S5000x64) 1 y1 y2 hc (ix2 p q) rfl
    (ix2 p (⟨q.val, h⟩ : Fin 64)) (fun b => by match b with | ⟨0, _⟩ => rfl | ⟨1, _⟩ => rfl)

/-- … and in the right half. -/
theorem cat_right (y1 y2 : S5000x64.Idx → EReal) (hc : Shape.Concatenates [S5000x64, S5000x64] S5000x128 1)
    (p : Fin 5000) (q : Fin 128) (h : ¬ q.val < 64) :
    concatenate S5000x128 1 [⟨S5000x64, y1⟩, ⟨S5000x64, y2⟩] hc (ix2 p q)
      = y2 (ix2 p (⟨q.val - 64, by omega⟩ : Fin 64)) :=
  concatenate_pair_apply_right (t := S5000x128) (s₁ := S5000x64) (s₂ := S5000x64) 1 y1 y2 hc (ix2 p q) rfl rfl
    (ix2 p (⟨q.val - 64, by omega⟩ : Fin 64))
    (fun b hb => by match b with | ⟨0, _⟩ => rfl | ⟨1, _⟩ => exact absurd rfl hb)
    (by show q.val - 64 + 64 = q.val; omega)

/-- The stored value at a left-half entry: from the first block. -/
theorem pay1_left (b a : Vec Ideal S1x64 .f32) (x y : Vec Ideal S5000x64 .f32) (p : Fin 5000) (q : Fin 128)
    (h : q.val < 64) :
    k1_pay1 b a x y (ix2 p q)
      = Cert.Spec.act (x (ix2 p (⟨q.val, h⟩ : Fin 64)) + b (ix2 (0 : Fin 1) (⟨q.val, h⟩ : Fin 64)))
          (a (ix2 (0 : Fin 1) (⟨q.val, h⟩ : Fin 64))) := by
  unfold k1_pay1
  refine (cat_left _ _ _ p q h).trans ?_
  exact act_entry b a x _ _ _ p ⟨q.val, h⟩

/-- The stored value at a right-half entry: from the second block, 64 columns to the left. -/
theorem pay1_right (b a : Vec Ideal S1x64 .f32) (x y : Vec Ideal S5000x64 .f32) (p : Fin 5000) (q : Fin 128)
    (h : ¬ q.val < 64) :
    k1_pay1 b a x y (ix2 p q)
      = Cert.Spec.act (y (ix2 p (⟨q.val - 64, by omega⟩ : Fin 64)) + b (ix2 (0 : Fin 1) (⟨q.val - 64, by omega⟩ : Fin 64)))
          (a (ix2 (0 : Fin 1) (⟨q.val - 64, by omega⟩ : Fin 64))) := by
  unfold k1_pay1
  refine (cat_right _ _ _ p q h).trans ?_
  exact act_entry b a y _ _ _ p ⟨q.val - 64, by omega⟩

/-! ## Where the blocks sit in their arrays -/

/-- The block indices of the five windows at every point: the first window and the output move down one block of
    rows per point, the second window is ten blocks further down, the two rows stay. -/
theorem index_facts1 : ∀ t : Fin cfg1.N,
    win1_0.index t (0 : Fin 2) = t.val ∧ win1_0.index t (1 : Fin 2) = 0
    ∧ win1_1.index t (0 : Fin 2) = t.val + 10 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- Entry (p, q) of the first window's block at point t is entry (5000 t + p, q) of the aggregate. -/
theorem iblk1_upper_apply (c : Dev nD) (t : Fin cfg1.N) (p : Fin 5000) (q : Fin 64) (n : Fin 100000)
    (hn : n.val = t.val * 5000 + p.val) :
    (iblk1 V c 0 t : Vec Ideal S5000x64 .f32) (ix2 p q) = (V c main_v17 : S100000x64.Idx → EReal) (ix2 n q) := by
  obtain ⟨e0, e1, -⟩ := index_facts1 t
  unfold iblk1
  rw [View.read_apply]
  show V c main_v17 _ = V c main_v17 _
  refine congrArg _ (funext fun a => Fin.ext ?_)
  match a with
  | ⟨0, _⟩ => show win1_0.index t (0 : Fin 2) * 5000 + 1 * p.val = n.val; rw [e0, hn]; omega
  | ⟨1, _⟩ => show win1_0.index t (1 : Fin 2) * 64 + 1 * q.val = q.val; rw [e1]; omega

/-- Entry (p, q) of the second window's block at point t is entry (50000 + 5000 t + p, q) of the aggregate. -/
theorem iblk1_lower_apply (c : Dev nD) (t : Fin cfg1.N) (p : Fin 5000) (q : Fin 64) (n : Fin 100000)
    (hn : n.val = t.val * 5000 + p.val + 50000) :
    (iblk1 V c 1 t : Vec Ideal S5000x64 .f32) (ix2 p q) = (V c main_v17 : S100000x64.Idx → EReal) (ix2 n q) := by
  obtain ⟨-, -, e2, e3, -⟩ := index_facts1 t
  unfold iblk1
  rw [View.read_apply]
  show V c main_v17 _ = V c main_v17 _
  refine congrArg _ (funext fun a => Fin.ext ?_)
  match a with
  | ⟨0, _⟩ => show win1_1.index t (0 : Fin 2) * 5000 + 1 * p.val = n.val; rw [e2, hn]; omega
  | ⟨1, _⟩ => show win1_1.index t (1 : Fin 2) * 64 + 1 * q.val = q.val; rw [e3]; omega

/-- The bias window's block at every point is the bias row. -/
theorem iblk1_bias_apply (c : Dev nD) (t : Fin cfg1.N) (z : Fin 1) (q : Fin 64) :
    (iblk1 V c 2 t : Vec Ideal S1x64 .f32) (ix2 z q) = (V c main_v18 : S1x64.Idx → EReal) (ix2 z q) := by
  obtain ⟨-, -, -, -, e4, e5, -⟩ := index_facts1 t
  unfold iblk1
  rw [View.read_apply]
  show V c main_v18 _ = V c main_v18 _
  refine congrArg _ (funext fun a => Fin.ext ?_)
  match a with
  | ⟨0, _⟩ => show win1_2.index t (0 : Fin 2) * 1 + 1 * z.val = z.val; rw [e4]; omega
  | ⟨1, _⟩ => show win1_2.index t (1 : Fin 2) * 64 + 1 * q.val = q.val; rw [e5]; omega

/-- The slope window's block at every point is the slope row. -/
theorem iblk1_slope_apply (c : Dev nD) (t : Fin cfg1.N) (z : Fin 1) (q : Fin 64) :
    (iblk1 V c 3 t : Vec Ideal S1x64 .f32) (ix2 z q) = (V c main_v19 : S1x64.Idx → EReal) (ix2 z q) := by
  obtain ⟨-, -, -, -, -, -, e6, e7, -⟩ := index_facts1 t
  unfold iblk1
  rw [View.read_apply]
  show V c main_v19 _ = V c main_v19 _
  refine congrArg _ (funext fun a => Fin.ext ?_)
  match a with
  | ⟨0, _⟩ => show win1_3.index t (0 : Fin 2) * 1 + 1 * z.val = z.val; rw [e6]; omega
  | ⟨1, _⟩ => show win1_3.index t (1 : Fin 2) * 64 + 1 * q.val = q.val; rw [e7]; omega

/-- What point t stores at an entry of its block is `Cert.Spec.catAct` of the three arrays at the entry's place in the
    output array. -/
theorem point1_eq (c : Dev nD) (t : Fin cfg1.N) (j : S5000x128.Idx) :
    k1_pay1 (iblk1 V c 2 t) (iblk1 V c 3 t) (iblk1 V c 0 t) (iblk1 V c 1 t) j
      = Cert.Spec.catAct (V c main_v17) (V c main_v18) (V c main_v19) (((cfg1.win 4).blk t).view.emb j) := by
  obtain ⟨p, q, rfl⟩ : ∃ (p : Fin 5000) (q : Fin 128), j = ix2 p q := ⟨j 0, j 1, eq_ix2 j⟩
  obtain ⟨-, -, -, -, -, -, -, -, e8, e9⟩ := index_facts1 t
  have hN : grid1.N = 10 := N_1
  have ht : t.val < 10 := hN ▸ t.isLt
  have hn : t.val * 5000 + p.val < 50000 := by have := p.isLt; omega
  have he : ((cfg1.win 4).blk t).view.emb (ix2 p q) = (ix2 (⟨t.val * 5000 + p.val, hn⟩ : Fin 50000) q : S50000x128.Idx) :=
    funext fun a => Fin.ext (by
      match a with
      | ⟨0, _⟩ => show win1_4.index t (0 : Fin 2) * 5000 + 1 * p.val = t.val * 5000 + p.val; rw [e8]; omega
      | ⟨1, _⟩ => show win1_4.index t (1 : Fin 2) * 128 + 1 * q.val = q.val; rw [e9]; omega)
  rw [he]
  by_cases h : q.val < 64
  · rw [Cert.Spec.catAct_left _ _ _ _ q h]
    refine (pay1_left _ _ _ _ p q h).trans ?_
    exact congrArg₂ Cert.Spec.act
      (congrArg₂ (· + ·) (iblk1_upper_apply V c t p _ _ rfl) (iblk1_bias_apply V c t _ _))
      (iblk1_slope_apply V c t _ _)
  · rw [Cert.Spec.catAct_right _ _ _ _ q h]
    refine (pay1_right _ _ _ _ p q h).trans ?_
    exact congrArg₂ Cert.Spec.act
      (congrArg₂ (· + ·) (iblk1_lower_apply V c t p _ _ rfl) (iblk1_bias_apply V c t _ _))
      (iblk1_slope_apply V c t _ _)

/-! ## From the blocks to the array -/

/-- What point t writes back is block t of `Cert.Spec.catAct` of the three arrays. -/
theorem flushed1_eq (c : Dev nD) (t : Fin cfg1.N) :
    (dat1 V c).flushed 4 t
      = ((cfg1.win 4).blk t).view.read (Elt Ideal) (Cert.Spec.catAct (V c main_v17) (V c main_v18) (V c main_v19)) := by
  show (cfg1.win 4).cut (grid1.coords t) ((dat1 V c).after 4 t) = _
  rw [after1_4]
  unfold out1_4
  rw [View.canon_unit_zero zero_offsets1]
  simp only [View.ld_unit_zero (S := S1x64) zero_offsets1, View.ld_unit_zero (S := S5000x64) zero_offsets1]
  funext j
  exact point1_eq V c t j

/-- An index of the output array is in point t's block when each coordinate is in the block's range on its axis. -/
theorem mem_blk1 (t : Fin cfg1.N) (i : S50000x128.Idx) :
    i ∈ ((cfg1.win 4).blk t).view.set ↔ ∀ a : Fin 2, win1_4.index t a * S5000x128.size a ≤ (i a).val ∧ (i a).val < win1_4.index t a * S5000x128.size a + S5000x128.size a := by
  show i ∈ ((View.whole main_v20).slice (win1_4.rect t)).set ↔ _
  rw [View.set_slice_whole, Rect.mem_set_unit]
  exact Iff.rfl

/-- Row r of the output array lies in the block of point r / 5000, which is written back. -/
theorem cover1 (i : S50000x128.Idx) :
    ∃ t : Fin cfg1.N, (cfg1.win 4).flush t = true ∧ i ∈ ((cfg1.win 4).blk t).view.set := by
  have hi0 : (i 0).val < 50000 := (i 0).isLt
  have hi1 : (i 1).val < 128 := (i 1).isLt
  have hN : grid1.N = 10 := N_1
  obtain ⟨t, ht⟩ : ∃ t : Fin cfg1.N, t.val = (i 0).val / 5000 :=
    ⟨⟨(i 0).val / 5000, by show (i 0).val / 5000 < grid1.N; rw [hN]; omega⟩, rfl⟩
  obtain ⟨-, -, -, -, -, -, -, -, e8, e9⟩ := index_facts1 t
  refine ⟨t, flush1_4 t, ?_⟩
  rw [mem_blk1]
  intro a
  match a with
  | ⟨0, _⟩ =>
    show win1_4.index t (0 : Fin 2) * 5000 ≤ (i 0).val ∧ (i 0).val < win1_4.index t (0 : Fin 2) * 5000 + 5000
    rw [e8, ht]; omega
  | ⟨1, _⟩ =>
    show win1_4.index t (1 : Fin 2) * 128 ≤ (i 1).val ∧ (i 1).val < win1_4.index t (1 : Fin 2) * 128 + 128
    rw [e9]; omega

/-- The output array after the pipeline's ten points: bias, activation and the two halves side by side, of the
    aggregate and the two rows as the region found them. -/
theorem arr1_final (c : Dev nD) :
    ((dat1 (F := Ideal) V c).arrAt 4 cfg1.N : S50000x128.Idx → EReal)
      = Cert.Spec.catAct (V c main_v17) (V c main_v18) (V c main_v19) :=
  (dat1 V c).arrAt_eq_of_cover 4 (Cert.Spec.catAct (V c main_v17) (V c main_v18) (V c main_v19))
    (fun t _ => flushed1_eq V c t) cover1

end Cert.KernelIdeal.Hand

end
-- ==== Proof.RefSide.lean ====
/-
  The reference's result read at an index.

  The reference computes the product of the node features and the weights as one matrix product; gathers, scales
  and sums along the edges (a stage kept here as one function `agg` of the product and of the edge arrays, and never
  opened); adds the bias, applies the activation entry by entry, cuts the nodes into an upper and a lower half and
  lays the lower half to the right of the upper. Read at entry (p, q) this is the specification's `catAct` of the
  aggregate, with the bias and the slope as one-row matrices.
-/
import proofs.«169847_j53781580480950_1_alg».proof.Proof.Gen.ReferenceIdeal.Read
import proofs.«169847_j53781580480950_1_alg».proof.Proof.Spec
import Idealize.ShloMosaic.Lib.Pipeline.Value
import Idealize.ShloMosaic.Lib.ValueIdx

noncomputable section

namespace Cert.RefSide

open Cert.ReferenceIdeal Cert.ReferenceIdeal.Gen Cert.ReferenceIdeal.Read
open Idealize.ShloMosaic Idealize.ShloMosaic.ValueIdx
open scoped BigOperators

/-- A vector of 64 entries as a one-row matrix. -/
def rowOf (b : S64.Idx → EReal) : S1x64.Idx → EReal := fun i => b (ix1 (⟨(i 1).val, idx2_lt1 i⟩ : Fin 64))

/-- Gather the rows of `h` along the edges' sources, scale each by its edge's weight, and sum the scaled rows into
    the edges' destinations: the reference's operations on the product, as one function of it. -/
def agg (h : FVec Ideal S100000x64 .f32) (x1 : (⟨S2x1200000, .i32⟩ : BufTy).Contents (Elt Ideal))
    (x2 : (⟨S1200000, .f32⟩ : BufTy).Contents (Elt Ideal)) : FVec Ideal S100000x64 .f32 :=
  Host.scatterAdd (F := Ideal) (φ := .f32) scatter_S100000x64_S1200000x1_S1200000x64_1_0_0_1 (val_main_v15 (F := Ideal)) (val_main_v16 (F := Ideal) x1)
    (mulf (F := Ideal) (φ := .f32) (Host.gather (α := Ideal .f32) gather_S100000x64_S1200000x1_S1200000x64_1_0_n_n_0_1_164 h (val_main_v10 (F := Ideal) x1)) (val_main_v13 (F := Ideal) x2))

/-- The reference's matrix product is the specification's. -/
theorem product_eq (x0 : (⟨S100000x256, .f32⟩ : BufTy).Contents (Elt Ideal)) (x3 : (⟨S256x64, .f32⟩ : BufTy).Contents (Elt Ideal)) :
    val_main_v4 (F := Ideal) x0 x3 = Cert.Spec.hmat x0 x3 := by
  funext i
  rw [val_main_v4_apply]
  unfold Cert.Spec.hmat
  refine Finset.sum_congr rfl fun k _ => ?_
  have el : lidx_main_v4 i k = ix2 (i 0) k := funext fun a => Fin.ext (by match a with | ⟨0, _⟩ => rfl | ⟨1, _⟩ => rfl)
  have er : ridx_main_v4 i k = ix2 k (i 1) := funext fun a => Fin.ext (by match a with | ⟨0, _⟩ => rfl | ⟨1, _⟩ => rfl)
  exact congrArg₂ (· * ·) (congrArg x0 el) (congrArg x3 er)

/-- The reference's aggregate is `agg` of its product. -/
theorem aggregate_eq (x0 : (⟨S100000x256, .f32⟩ : BufTy).Contents (Elt Ideal)) (x1 : (⟨S2x1200000, .i32⟩ : BufTy).Contents (Elt Ideal))
    (x2 : (⟨S1200000, .f32⟩ : BufTy).Contents (Elt Ideal)) (x3 : (⟨S256x64, .f32⟩ : BufTy).Contents (Elt Ideal)) :
    val_main_v17 (F := Ideal) x0 x1 x2 x3 = agg (Cert.Spec.hmat x0 x3) x1 x2 := by
  unfold val_main_v17 val_main_v14 val_main_v11 agg
  rw [product_eq]

/-- The activated aggregate at an entry: the activation of the aggregate's entry plus its channel's bias, with its
    channel's slope. -/
theorem activated_apply (x0 : (⟨S100000x256, .f32⟩ : BufTy).Contents (Elt Ideal)) (x1 : (⟨S2x1200000, .i32⟩ : BufTy).Contents (Elt Ideal))
    (x2 : (⟨S1200000, .f32⟩ : BufTy).Contents (Elt Ideal)) (x3 : (⟨S256x64, .f32⟩ : BufTy).Contents (Elt Ideal))
    (x4 x5 : (⟨S64, .f32⟩ : BufTy).Contents (Elt Ideal)) (n : Fin 100000) (d : Fin 64) :
    val_main_v26 (F := Ideal) x0 x1 x2 x3 x4 x5 (ix2 n d)
      = Cert.Spec.act (agg (Cert.Spec.hmat x0 x3) x1 x2 (ix2 n d) + rowOf x4 (ix2 (0 : Fin 1) d)) (rowOf x5 (ix2 (0 : Fin 1) d)) := by
  have hb : val_main_v19 (F := Ideal) x4 (ix2 n d) = rowOf x4 (ix2 (0 : Fin 1) d) := by
    rw [val_main_v19_apply, val_main_v18_apply]; unfold rowOf
    exact congrArg x4 (funext fun a => Fin.ext (by match a with | ⟨0, _⟩ => rfl))
  have ha : val_main_v24 (F := Ideal) x5 (ix2 n d) = rowOf x5 (ix2 (0 : Fin 1) d) := by
    rw [val_main_v24_apply, val_main_v23_apply]; unfold rowOf
    exact congrArg x5 (funext fun a => Fin.ext (by match a with | ⟨0, _⟩ => rfl))
  have hz : val_main_v21 (F := Ideal) (ix2 n d) = Ideal.ofBits .f32 0x00000000#32 := by
    rw [val_main_v21_apply]; rfl
  have hg : val_main_v20 (F := Ideal) x0 x1 x2 x3 x4 (ix2 n d)
      = agg (Cert.Spec.hmat x0 x3) x1 x2 (ix2 n d) + rowOf x4 (ix2 (0 : Fin 1) d) := by
    rw [val_main_v20_apply, aggregate_eq, hb]; rfl
  rw [val_main_v26_apply, val_main_v22_apply, val_main_v25_apply, hg, ha, hz]
  rfl

/-- THE REFERENCE'S RESULT is the specification's `catAct` of the aggregate of the product. -/
theorem result_eq (x0 : (⟨S100000x256, .f32⟩ : BufTy).Contents (Elt Ideal)) (x1 : (⟨S2x1200000, .i32⟩ : BufTy).Contents (Elt Ideal))
    (x2 : (⟨S1200000, .f32⟩ : BufTy).Contents (Elt Ideal)) (x3 : (⟨S256x64, .f32⟩ : BufTy).Contents (Elt Ideal))
    (x4 x5 : (⟨S64, .f32⟩ : BufTy).Contents (Elt Ideal)) :
    val_main_v29 (F := Ideal) x0 x1 x2 x3 x4 x5
      = Cert.Spec.catAct (agg (Cert.Spec.hmat x0 x3) x1 x2) (rowOf x4) (rowOf x5) := by
  funext j
  obtain ⟨p, q, rfl⟩ : ∃ (p : Fin 50000) (q : Fin 128), j = ix2 p q := ⟨j 0, j 1, eq_ix2 j⟩
  unfold val_main_v29
  by_cases hq : q.val < 64
  · rw [Cert.Spec.catAct_left _ _ _ p q hq]
    refine (concatenate_pair_apply_left (t := S50000x128) (s₁ := S50000x64) (s₂ := S50000x64) (1 : Fin 2)
      (val_main_v27 (F := Ideal) x0 x1 x2 x3 x4 x5) (val_main_v28 (F := Ideal) x0 x1 x2 x3 x4 x5)
      concatenates_S50000x64_S50000x64_S50000x128_d1 (ix2 p q) rfl
      (ix2 p (⟨q.val, hq⟩ : Fin 64)) (fun b => by match b with | ⟨0, _⟩ => rfl | ⟨1, _⟩ => rfl)).trans ?_
    rw [val_main_v27_apply]
    have e : idx_main_v27 (ix2 p (⟨q.val, hq⟩ : Fin 64)) = ix2 (⟨p.val, by omega⟩ : Fin 100000) (⟨q.val, hq⟩ : Fin 64) :=
      funext fun a => Fin.ext (by match a with | ⟨0, _⟩ => rfl | ⟨1, _⟩ => rfl)
    rw [e, activated_apply]
  · rw [Cert.Spec.catAct_right _ _ _ p q hq]
    have hq' : q.val - 64 < 64 := by omega
    refine (concatenate_pair_apply_right (t := S50000x128) (s₁ := S50000x64) (s₂ := S50000x64) (1 : Fin 2)
      (val_main_v27 (F := Ideal) x0 x1 x2 x3 x4 x5) (val_main_v28 (F := Ideal) x0 x1 x2 x3 x4 x5)
      concatenates_S50000x64_S50000x64_S50000x128_d1 (ix2 p q) rfl rfl
      (ix2 p (⟨q.val - 64, hq'⟩ : Fin 64)) (fun b hb => by
        match b with
        | ⟨0, _⟩ => rfl
        | ⟨1, _⟩ => exact absurd rfl hb)
      (by show q.val - 64 + 64 = q.val; omega)).trans ?_
    rw [val_main_v28_apply]
    have e : idx_main_v28 (ix2 p (⟨q.val - 64, hq'⟩ : Fin 64)) = ix2 (⟨p.val + 50000, by omega⟩ : Fin 100000) (⟨q.val - 64, hq'⟩ : Fin 64) :=
      funext fun a => Fin.ext (by
        match a with
        | ⟨0, _⟩ => show 50000 + p.val = p.val + 50000; omega
        | ⟨1, _⟩ => rfl)
    rw [e, activated_apply]

end Cert.RefSide

end
-- ==== Proof.Bridge.lean ====
/-
  The kernel's result is the specification's function of the argument arrays.

  The second kernel region leaves, in the result array, bias + activation + the two halves side by side (`catAct`)
  of the three arrays it is entered with. The first of them is the host's gather-scale-sum stage of the product
  array the first kernel region left, which is the matrix product of the node features and the weights; the other
  two are the bias and the slope vectors re-laid as one-row matrices. The gather-scale-sum stage is, operation for
  operation, the stage the reference applies to its own product, so the two programs' stages are one function.
-/
import proofs.«169847_j53781580480950_1_alg».proof.Proof.KI.Host1
import proofs.«169847_j53781580480950_1_alg».proof.Proof.KI.Val0
import proofs.«169847_j53781580480950_1_alg».proof.Proof.KI.Val1
import proofs.«169847_j53781580480950_1_alg».proof.Proof.RefSide
import Idealize.ShloMosaic.Lib.Pipeline.Value
import Idealize.ShloMosaic.Lib.ValueIdx

set_option maxRecDepth 16384

noncomputable section

namespace Cert.Bridge

open Cert.KernelIdeal Cert.KernelIdeal.Gen Cert.KernelIdeal.Hand
open Idealize.ShloMosaic Idealize.ShloMosaic.TcCoe Idealize.ShloMosaic.ValueIdx Idealize.SL.Sem

/-- The kernel's host stage between the regions is the reference's stage: the same operations in the same order. -/
theorem stage_eq (h : FVec Ideal S100000x64 .f32) (x1 : (⟨S2x1200000, .i32⟩ : BufTy).Contents (Elt Ideal))
    (x2 : (⟨S1200000, .f32⟩ : BufTy).Contents (Elt Ideal)) :
    aggK (F := Ideal) h x1 x2 = Cert.RefSide.agg h x1 x2 := by
  unfold aggK Cert.RefSide.agg Cert.ReferenceIdeal.Read.val_main_v15 Cert.ReferenceIdeal.Read.val_main_cst
    Cert.ReferenceIdeal.Read.val_main_v16 Cert.ReferenceIdeal.Read.val_main_v3 Cert.ReferenceIdeal.Read.val_main_v2
    Cert.ReferenceIdeal.Read.val_main_v13 Cert.ReferenceIdeal.Read.val_main_v12
    Cert.ReferenceIdeal.Read.val_main_v10 Cert.ReferenceIdeal.Read.val_main_v9 Cert.ReferenceIdeal.Read.val_main_v8
    Cert.ReferenceIdeal.Read.val_main_v7 Cert.ReferenceIdeal.Read.val_main_c_0 Cert.ReferenceIdeal.Read.val_main_v6
    Cert.ReferenceIdeal.Read.val_main_v5 Cert.ReferenceIdeal.Read.val_main_c Cert.ReferenceIdeal.Read.val_main_v1
    Cert.ReferenceIdeal.Read.val_main_v0
  rfl

/-- A vector of 64 entries re-laid as one row reads, at (0, q), the vector at q. -/
theorem row_eq (b : (⟨S64, .f32⟩ : BufTy).Contents (Elt Ideal)) :
    (shapeCast _ (b : S64.Idx → EReal) shapeCasts_S64_S1x64 : S1x64.Idx → EReal) = Cert.RefSide.rowOf b := by
  funext i
  unfold Cert.RefSide.rowOf
  refine shapeCast_apply _ shapeCasts_S64_S1x64 i _ ?_
  rw [Shape.rowMajor_val_one, Shape.rowMajor_val_two]
  have h0 : (i 0).val < 1 := (i 0).isLt
  show (i 1).val = (i 0).val * 64 + (i 1).val
  omega

variable (m : (ℓ : Loc nD τ sig) → Buf (Elt Ideal) ℓ) (ρ : Dev nD → PrngReg)

/-- What the first region leaves in the product array: the matrix product of the node features and the weights. -/
theorem product_left (c : Dev nD) :
    (W1 m ρ c (Proc.devRef .tc main_v0) : S100000x64.Idx → EReal)
      = Cert.Spec.hmat (m ((c : Thread nD τ).loc main_arg0)) (m ((c : Thread nD τ).loc main_arg3)) :=
  (W1_arr m ρ c 2).trans (arr0_final (E0 m ρ) c)

/-- THE KERNEL'S RESULT: what the second region leaves in the result array, as the specification's function of the
    argument arrays. -/
theorem kernel_result (c : Dev nD) :
    ((dat1 (F := Ideal) (E2 m ρ) c).arrAt 4 cfg1.N : S50000x128.Idx → EReal)
      = Cert.Spec.catAct
          (Cert.RefSide.agg (Cert.Spec.hmat (m ((c : Thread nD τ).loc main_arg0)) (m ((c : Thread nD τ).loc main_arg3)))
            (m ((c : Thread nD τ).loc main_arg1)) (m ((c : Thread nD τ).loc main_arg2)))
          (Cert.RefSide.rowOf (m ((c : Thread nD τ).loc main_arg4))) (Cert.RefSide.rowOf (m ((c : Thread nD τ).loc main_arg5))) := by
  have h17 : (E2 m ρ c main_v17 : S100000x64.Idx → EReal)
      = Cert.RefSide.agg (Cert.Spec.hmat (m ((c : Thread nD τ).loc main_arg0)) (m ((c : Thread nD τ).loc main_arg3)))
          (m ((c : Thread nD τ).loc main_arg1)) (m ((c : Thread nD τ).loc main_arg2)) := by
    refine (W2_main_v17 m ρ c).trans ?_
    rw [product_left, show W1 m ρ c (Proc.devRef .tc main_arg1) = m ((c : Thread nD τ).loc main_arg1) from W1_of_ne m ρ c main_arg1 (by decide),
      show W1 m ρ c (Proc.devRef .tc main_arg2) = m ((c : Thread nD τ).loc main_arg2) from W1_of_ne m ρ c main_arg2 (by decide)]
    exact stage_eq _ _ _
  have h18 : (E2 m ρ c main_v18 : S1x64.Idx → EReal) = Cert.RefSide.rowOf (m ((c : Thread nD τ).loc main_arg4)) := by
    refine (W2_main_v18 m ρ c).trans ?_
    rw [show W1 m ρ c (Proc.devRef .tc main_arg4) = m ((c : Thread nD τ).loc main_arg4) from W1_of_ne m ρ c main_arg4 (by decide)]
    exact row_eq _
  have h19 : (E2 m ρ c main_v19 : S1x64.Idx → EReal) = Cert.RefSide.rowOf (m ((c : Thread nD τ).loc main_arg5)) := by
    refine (W2_main_v19 m ρ c).trans ?_
    rw [show W1 m ρ c (Proc.devRef .tc main_arg5) = m ((c : Thread nD τ).loc main_arg5) from W1_of_ne m ρ c main_arg5 (by decide)]
    exact row_eq _
  rw [arr1_final (E2 m ρ) c, h17, h18, h19]

/-- THE KERNEL'S RUN: every weakly fair execution terminates, the result array ends at the specification's function of
    the argument arrays, and the argument arrays end unchanged. -/
theorem kernel_run : θ_run defs (onTc (τ := τ) (main (F := Ideal))) ⟨m, fun _ => 0, ρ⟩ (fun r => ∀ c : Dev nD,
      r.2.mem ((c.tc : Thread nD τ).loc main_v20)
        = Cert.Spec.catAct
            (Cert.RefSide.agg (Cert.Spec.hmat (m ((c.tc : Thread nD τ).loc main_arg0)) (m ((c.tc : Thread nD τ).loc main_arg3)))
              (m ((c.tc : Thread nD τ).loc main_arg1)) (m ((c.tc : Thread nD τ).loc main_arg2)))
            (Cert.RefSide.rowOf (m ((c.tc : Thread nD τ).loc main_arg4))) (Cert.RefSide.rowOf (m ((c.tc : Thread nD τ).loc main_arg5)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (kernel_result m ρ c), (h c).2⟩) (run_result m ρ)

end Cert.Bridge

end
-- ==== Proof.lean ====
/-
  The five claims of the certificate.

  Both programs compute, at every node and channel, the activation of (the weighted sum over the node's incoming
  edges of the source nodes' transformed features, plus the channel's bias), with the lower half of the nodes laid to
  the right of the upper half. The kernel transforms the features in a first tiled region (a matrix product per
  block of rows: over the extended reals the narrower input format is the identity and the product is the plain
  sum), lets the host gather, scale and sum along the edges, and adds the bias and activates in a second tiled region
  that reads the aggregate through two windows, one per half. The reference does all of it on the host. The
  gather-scale-sum stage is the same list of operations in both programs and is carried as one function; the rest
  is equal entry by entry, with no algebra beyond reading each operation at an index: the precondition is not used.

  The frames: each kernel program is run region by region with the contents of every unscoped buffer named at every
  boundary, so its argument arrays are read back at the end; the reference's frame is its run with the result dropped.
-/
import proofs.«169847_j53781580480950_1_alg».proof.Defs
import proofs.«169847_j53781580480950_1_alg».proof.Proof.Gen.Kernel
import proofs.«169847_j53781580480950_1_alg».proof.Proof.Gen.KernelIdeal
import proofs.«169847_j53781580480950_1_alg».proof.Proof.Gen.ReferenceIdeal
import proofs.«169847_j53781580480950_1_alg».proof.Proof.Gen.Pre_finite_inputs
import proofs.«169847_j53781580480950_1_alg».proof.Proof.Gen.ReferenceIdeal.Run
import proofs.«169847_j53781580480950_1_alg».proof.Proof.Gen.ReferenceIdeal.Read
import proofs.«169847_j53781580480950_1_alg».proof.Proof.K.Run
import proofs.«169847_j53781580480950_1_alg».proof.Proof.Bridge
import Idealize.ShloMosaic.Adequacy
import Idealize.ShloMosaic.Init

noncomputable section

namespace Cert.Proof

open Idealize.ShloMosaic Idealize.SL.Sem

/-- The word-level kernel program runs to the end and leaves its arguments unchanged. -/
theorem frame_kernel : Cert.frame_Kernel := fun m ρ _ => Cert.Kernel.Hand.frame m ρ

/-- So does the kernel program read over the extended reals. -/
theorem frame_kernelIdeal : Cert.frame_KernelIdeal := fun m ρ _ => Cert.KernelIdeal.Hand.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation of the kernel was rewritten on the way to the extended reals: there is nothing to preserve. -/
theorem preserves : Cert.preserves_Kernel_KernelIdeal := trivial

/-- From memories that agree on the arguments both programs end with the specification's function of the arguments
    in their result arrays. -/
theorem algebraic : Cert.algebraic_KernelIdeal_ReferenceIdeal := by
  intro m ρ m' ρ' _ hagree
  refine ⟨_, Cert.Bridge.kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v29_eq, Cert.RefSide.result_eq, (hagree c).1, (hagree c).2.1, (hagree c).2.2.1,
    (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
